-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S8x2x65536 : Shape := ⟨3, ![8, 2, 65536]⟩
abbrev S8x4096 : Shape := ⟨2, ![8, 4096]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8x2x65536 : S_.BroadcastsInDim S8x2x65536 (![] : Fin 0 → Fin S8x2x65536.rank)
  reducesTo_S8x2x65536_S_d0_1_2 : S8x2x65536.ReducesTo [0, 1, 2] S_

variable [Facts]

def fn_part1 {F : FTy → Type} [FloatOps F] (main_arg4 : FVec F S256 .f32) (main_arg5 : IVec S8x2x65536 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S8x2x65536 32 := broadcastInDim S8x2x65536 ![] bcast_S_S8x2x65536 main_c_8
  let main_v25 : IVec S8x2x65536 1 := cmpi .sge main_arg5 main_v24
  let main_c_9 : IVec S_ 32 := constantI S_ 32 4096#32
  let main_v26 : IVec S8x2x65536 32 := broadcastInDim S8x2x65536 ![] bcast_S_S8x2x65536 main_c_9
  let main_v27 : IVec S8x2x65536 1 := cmpi .slt main_arg5 main_v26
  let main_v28 : IVec S8x2x65536 1 := andi main_v25 main_v27
  let main_c_10 : IVec S_ 1 := constantI S_ 1 1#1
  let main_v29 : IVec S_ 1 := (fun x v => Host.reduce IntOp.andi x v reducesTo_S8x2x65536_S_d0_1_2 h_S_) main_v28 main_c_10
  let main_v30 : IVec S_ 1 := andi main_v23 main_v29
  main_v30

def fn {F : FTy → Type} [FloatOps F] (main_arg0 : FVec F S8x4096x256 .f32) (main_arg1 : FVec F S256x256 .f32) (main_arg2 : FVec F S256 .f32) (main_arg3 : FVec F S256 .f32) (main_arg4 : FVec F S256 .f32) (main_arg5 : IVec S8x2x65536 32) (main_arg6 : IVec S8x4096 32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S8x2x65536 : Shape := ⟨3, ![8, 2, 65536]⟩
abbrev S8x4096 : Shape := ⟨2, ![8, 4096]⟩
abbrev S32768x256 : Shape := ⟨2, ![32768, 256]⟩
abbrev S32768x1 : Shape := ⟨2, ![32768, 1]⟩
abbrev S1024x256 : Shape := ⟨2, ![1024, 256]⟩
abbrev S1024x1 : Shape := ⟨2, ![1024, 1]⟩
abbrev S1x256 : Shape := ⟨2, ![1, 256]⟩
abbrev S8x1x65536 : Shape := ⟨3, ![8, 1, 65536]⟩
abbrev S8x65536 : Shape := ⟨2, ![8, 65536]⟩
abbrev S8x65536x1 : Shape := ⟨3, ![8, 65536, 1]⟩
abbrev S_ : Shape := ⟨0, ![]⟩
abbrev S1 : Shape := ⟨1, ![1]⟩
abbrev S1x1x1 : Shape := ⟨3, ![1, 1, 1]⟩
abbrev S8x65536x256 : Shape := ⟨3, ![8, 65536, 256]⟩
abbrev S8 : Shape := ⟨1, ![8]⟩
abbrev S8x1 : Shape := ⟨2, ![8, 1]⟩
abbrev S524288 : Shape := ⟨1, ![524288]⟩
abbrev S524288x256 : Shape := ⟨2, ![524288, 256]⟩
abbrev S524288x1 : Shape := ⟨2, ![524288, 1]⟩
abbrev S2048x256 : Shape := ⟨2, ![2048, 256]⟩
abbrev S2048x1 : Shape := ⟨2, ![2048, 1]⟩
abbrev S2048 : Shape := ⟨1, ![2048]⟩

abbrev nBuf : Space → Nat
  | .hbm => 56
  | .vmem => 20
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S8x2x65536, .i32⟩
  | .hbm, ⟨6, _⟩ => ⟨S8x4096, .i32⟩
  | .hbm, ⟨7, _⟩ => ⟨S32768x256, .f32⟩
  | .hbm, ⟨8, _⟩ => ⟨S32768x1, .i32⟩
  | .hbm, ⟨9, _⟩ => ⟨S256x256, .f32⟩
  | .hbm, ⟨10, _⟩ => ⟨S256x256, .bf16⟩
  | .hbm, ⟨11, _⟩ => ⟨S32768x256, .f32⟩
  | .hbm, ⟨12, _⟩ => ⟨S32768x256, .f32⟩
  | .hbm, ⟨13, _⟩ => ⟨S8x1x65536, .i32⟩
  | .hbm, ⟨14, _⟩ => ⟨S8x65536, .i32⟩
  | .hbm, ⟨15, _⟩ => ⟨S8x1x65536, .i32⟩
  | .hbm, ⟨16, _⟩ => ⟨S8x65536, .i32⟩
  | .hbm, ⟨17, _⟩ => ⟨S8x4096x256, .f32⟩
  | .hbm, ⟨18, _⟩ => ⟨S8x65536x1, .i32⟩
  | .hbm, ⟨19, _⟩ => ⟨S_, .i32⟩
  | .hbm, ⟨20, _⟩ => ⟨S8x65536x1, .i32⟩
  | .hbm, ⟨21, _⟩ => ⟨S8x65536x1, .i1⟩
  | .hbm, ⟨22, _⟩ => ⟨S_, .i32⟩
  | .hbm, ⟨23, _⟩ => ⟨S8x65536x1, .i32⟩
  | .hbm, ⟨24, _⟩ => ⟨S8x65536x1, .i32⟩
  | .hbm, ⟨25, _⟩ => ⟨S8x65536x1, .i32⟩
  | .hbm, ⟨26, _⟩ => ⟨S1, .i32⟩
  | .hbm, ⟨27, _⟩ => ⟨S_, .i32⟩
  | .hbm, ⟨28, _⟩ => ⟨S8x65536x1, .i32⟩
  | .hbm, ⟨29, _⟩ => ⟨S8x65536x1, .i1⟩
  | .hbm, ⟨30, _⟩ => ⟨S1x1x1, .i32⟩
  | .hbm, ⟨31, _⟩ => ⟨S8x65536x1, .i32⟩
  | .hbm, ⟨32, _⟩ => ⟨S8x65536x1, .i1⟩
  | .hbm, ⟨33, _⟩ => ⟨S8x65536x1, .i1⟩
  | .hbm, ⟨34, _⟩ => ⟨S_, .i1⟩
  | .hbm, ⟨35, _⟩ => ⟨S8x65536, .i1⟩
  | .hbm, ⟨36, _⟩ => ⟨S8x65536x256, .f32⟩
  | .hbm, ⟨37, _⟩ => ⟨S8x65536x256, .i1⟩
  | .hbm, ⟨38, _⟩ => ⟨S_, .f32⟩
  | .hbm, ⟨39, _⟩ => ⟨S8x65536x256, .f32⟩
  | .hbm, ⟨40, _⟩ => ⟨S8x65536x256, .f32⟩
  | .hbm, ⟨41, _⟩ => ⟨S8, .i32⟩
  | .hbm, ⟨42, _⟩ => ⟨S8x1, .i32⟩
  | .hbm, ⟨43, _⟩ => ⟨S_, .i32⟩
  | .hbm, ⟨44, _⟩ => ⟨S8x1, .i32⟩
  | .hbm, ⟨45, _⟩ => ⟨S8x1, .i32⟩
  | .hbm, ⟨46, _⟩ => ⟨S8x65536, .i32⟩
  | .hbm, ⟨47, _⟩ => ⟨S8x65536, .i32⟩
  | .hbm, ⟨48, _⟩ => ⟨S524288, .i32⟩
  | .hbm, ⟨49, _⟩ => ⟨S524288x256, .f32⟩
  | .hbm, ⟨50, _⟩ => ⟨S_, .f32⟩
  | .hbm, ⟨51, _⟩ => ⟨S32768x256, .f32⟩
  | .hbm, ⟨52, _⟩ => ⟨S524288x1, .i32⟩
  | .hbm, ⟨53, _⟩ => ⟨S32768x256, .f32⟩
  | .hbm, ⟨54, _⟩ => ⟨S32768x256, .f32⟩
  | .hbm, ⟨55, _⟩ => ⟨S8x4096x256, .f32⟩
  | .local _ .vmem, ⟨0, _⟩ => ⟨S1024x256, .f32⟩
  | .local _ .vmem, ⟨1, _⟩ => ⟨S1024x256, .f32⟩
  | .local _ .vmem, ⟨2, _⟩ => ⟨S256x256, .bf16⟩
  | .local _ .vmem, ⟨3, _⟩ => ⟨S256, .f32⟩
  | .local _ .vmem, ⟨4, _⟩ => ⟨S1024x1, .i32⟩
  | .local _ .vmem, ⟨5, _⟩ => ⟨S1024x1, .i32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S256, .f32⟩
  | .local _ .vmem, ⟨15, _⟩ => ⟨S256, .f32⟩
  | .local _ .vmem, ⟨16, _⟩ => ⟨S2048x1, .i32⟩
  | .local _ .vmem, ⟨17, _⟩ => ⟨S2048x1, .i32⟩
  | .local _ .vmem, ⟨18, _⟩ => ⟨S2048x256, .f32⟩
  | .local _ .vmem, ⟨19, _⟩ => ⟨S2048x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_c_2 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x4096x256_S32768x256 : S8x4096x256.ShapeCasts S32768x256
  shapeCasts_S8x4096_S32768x1 : S8x4096.ShapeCasts S32768x1
  transposes_S256x256_S256x256_1_0 : S256x256.Transposes [1, 0] S256x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  slices_S8x2x65536_S8x1x65536_0_0_0 : S8x2x65536.Slices ![0, 0, 0] S8x1x65536
  shapeCasts_S8x1x65536_S8x65536 : S8x1x65536.ShapeCasts S8x65536
  slices_S8x2x65536_S8x1x65536_0_1_0 : S8x2x65536.Slices ![0, 1, 0] S8x1x65536
  shapeCasts_S32768x256_S8x4096x256 : S32768x256.ShapeCasts S8x4096x256
  bcast_S8x65536_S8x65536x1_0_1 : S8x65536.BroadcastsInDim S8x65536x1 (![0, 1] : Fin 2 → Fin S8x65536x1.rank)
  bcast_S_S8x65536x1 : S_.BroadcastsInDim S8x65536x1 (![] : Fin 0 → Fin S8x65536x1.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  reducesTo_S8x65536x1_S8x65536_d2 : S8x65536x1.ReducesTo [2] S8x65536
  h_S_ : 0 < S_.numel
  bcast_S8x65536_S8x65536x256_0_1 : S8x65536.BroadcastsInDim S8x65536x256 (![0, 1] : Fin 2 → Fin S8x65536x256.rank)
  bcast_S_S8x65536x256 : S_.BroadcastsInDim S8x65536x256 (![] : Fin 0 → Fin S8x65536x256.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  shapeCasts_S8x65536x256_S524288x256 : S8x65536x256.ShapeCasts S524288x256
  bcast_S_S32768x256 : S_.BroadcastsInDim S32768x256 (![] : Fin 0 → Fin S32768x256.rank)
  bcast_S524288_S524288x1_0 : S524288.BroadcastsInDim S524288x1 (![0] : Fin 1 → Fin S524288x1.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  reduces_S2048x256_S2048 : S2048x256.Reduces [1] S2048
  shapeCasts_S2048_S2048x1 : S2048.ShapeCasts S2048x1
  broadcasts_S1x256_S2048x256 : S1x256.Broadcasts S2048x256
  dot_S1024x256_S256x256_S1024x256_1_0_0_1_n_n_wf : DotDims.WF S1024x256 S256x256 S1024x256 [1] [0] [0] [1] [] []
  gather_S8x4096x256_S8x65536x1_S8x65536x256_2_1_0_0_1_2_11256_wf : GatherDims.WF S8x4096x256 S8x65536x1 S8x65536x256 [2] [1] [0] [1] [0] 2 ![1, 1, 256]
  scatter_S32768x256_S524288x1_S524288x256_1_0_0_1_wf : ScatterDims.WF S32768x256 S524288x1 S524288x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .i32 = 32 ∨ (Rect.block (s := S32768x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S32768x256.size a
  hwx0_4 : ∀ i : grid0.Coords, EltTy.bits .f32 = 32 ∨ (Rect.block (s := S32768x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S32768x256.size a
  hwx0_5 : ∀ i : grid0.Coords, EltTy.bits .f32 = 32 ∨ (Rect.block (s := S32768x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S32768x256.size a
  hwx1_0 : ∀ i : grid1.Coords, EltTy.bits .f32 = 32 ∨ (Rect.block (s := S32768x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S32768x256.size a
  hwx1_1 : ∀ i : grid1.Coords, EltTy.bits .f32 = 32 ∨ (Rect.block (s := S32768x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S32768x1.size a
  hwx1_4 : ∀ i : grid1.Coords, EltTy.bits .i32 = 32 ∨ (Rect.block (s := S32768x1) S2048x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S32768x256.size a
  hwx1_5 : ∀ i : grid1.Coords, EltTy.bits .f32 = 32 ∨ (Rect.block (s := S32768x256) S2048x256.size (cc1_transform_5 i) (hinb1_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8x4096x256_S8x65536x1_S8x65536x256_2_1_0_0_1_2_11256 : GatherDims S8x4096x256 S8x65536x1 S8x65536x256 where
  offsetDims := [2]
  collapsedSliceDims := [1]
  operandBatchingDims := [0]
  startIndicesBatchingDims := [0]
  startIndexMap := [1]
  indexVectorDim := 2
  sliceSizes := ![1, 1, 256]
  wf := gather_S8x4096x256_S8x65536x1_S8x65536x256_2_1_0_0_1_2_11256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S8x2x65536 : Shape := ⟨3, ![8, 2, 65536]⟩
abbrev S8x4096 : Shape := ⟨2, ![8, 4096]⟩
abbrev S1x1x256 : Shape := ⟨3, ![1, 1, 256]⟩
abbrev S8x1x65536 : Shape := ⟨3, ![8, 1, 65536]⟩
abbrev S8x65536 : Shape := ⟨2, ![8, 65536]⟩
abbrev S_ : Shape := ⟨0, ![]⟩
abbrev S8x65536x1 : Shape := ⟨3, ![8, 65536, 1]⟩
abbrev S1 : Shape := ⟨1, ![1]⟩
abbrev S1x1x1 : Shape := ⟨3, ![1, 1, 1]⟩
abbrev S8x65536x256 : Shape := ⟨3, ![8, 65536, 256]⟩
abbrev S8 : Shape := ⟨1, ![8]⟩
abbrev S8x1 : Shape := ⟨2, ![8, 1]⟩
abbrev S524288 : Shape := ⟨1, ![524288]⟩
abbrev S524288x256 : Shape := ⟨2, ![524288, 256]⟩
abbrev S32768x256 : Shape := ⟨2, ![32768, 256]⟩
abbrev S524288x1 : Shape := ⟨2, ![524288, 1]⟩
abbrev S8x4096x1 : Shape := ⟨3, ![8, 4096, 1]⟩

abbrev nBuf : Space → Nat
  | .hbm => 141
  | .vmem => 0
  | .smem => 0
  | _ => 0

abbrev hbmTy0_0 (i : Nat) : BufTy := match i % 128 with
  | 0 => ⟨S8x4096x256, .f32⟩
  | 1 => ⟨S256x256, .f32⟩
  | 2 => ⟨S256, .f32⟩
  | 3 => ⟨S256, .f32⟩
  | 4 => ⟨S256, .f32⟩
  | 5 => ⟨S8x2x65536, .i32⟩
  | 6 => ⟨S8x4096, .i32⟩
  | 7 => ⟨S8x4096x256, .f32⟩
  | 8 => ⟨S1x1x256, .f32⟩
  | 9 => ⟨S8x4096x256, .f32⟩
  | 10 => ⟨S8x4096x256, .f32⟩
  | 11 => ⟨S8x1x65536, .i32⟩
  | 12 => ⟨S8x65536, .i32⟩
  | 13 => ⟨S8x1x65536, .i32⟩
  | 14 => ⟨S8x65536, .i32⟩
  | 15 => ⟨S8x4096, .f32⟩
  | 16 => ⟨S_, .i32⟩
  | 17 => ⟨S8x65536, .i32⟩
  | 18 => ⟨S8x65536, .i1⟩
  | 19 => ⟨S_, .i32⟩
  | 20 => ⟨S8x65536, .i32⟩
  | 21 => ⟨S8x65536, .i32⟩
  | 22 => ⟨S8x65536, .i32⟩
  | 23 => ⟨S8x65536x1, .i32⟩
  | 24 => ⟨S1, .i32⟩
  | 25 => ⟨S_, .i32⟩
  | 26 => ⟨S8x65536x1, .i32⟩
  | 27 => ⟨S8x65536x1, .i1⟩
  | 28 => ⟨S1x1x1, .i32⟩
  | 29 => ⟨S8x65536x1, .i32⟩
  | 30 => ⟨S8x65536x1, .i1⟩
  | 31 => ⟨S8x65536x1, .i1⟩
  | 32 => ⟨S_, .i1⟩
  | 33 => ⟨S8x65536, .i1⟩
  | 34 => ⟨S8x65536, .f32⟩
  | 35 => ⟨S_, .f32⟩
  | 36 => ⟨S8x65536, .f32⟩
  | 37 => ⟨S8x65536, .f32⟩
  | 38 => ⟨S_, .i32⟩
  | 39 => ⟨S8x65536, .i32⟩
  | 40 => ⟨S8x65536, .i1⟩
  | 41 => ⟨S_, .i32⟩
  | 42 => ⟨S8x65536, .i32⟩
  | 43 => ⟨S8x65536, .i32⟩
  | 44 => ⟨S8x65536, .i32⟩
  | 45 => ⟨S8x65536x1, .i32⟩
  | 46 => ⟨S1, .i32⟩
  | 47 => ⟨S_, .i32⟩
  | 48 => ⟨S8x65536x1, .i32⟩
  | 49 => ⟨S8x65536x1, .i1⟩
  | 50 => ⟨S1x1x1, .i32⟩
  | 51 => ⟨S8x65536x1, .i32⟩
  | 52 => ⟨S8x65536x1, .i1⟩
  | 53 => ⟨S8x65536x1, .i1⟩
  | 54 => ⟨S_, .i1⟩
  | 55 => ⟨S8x65536, .i1⟩
  | 56 => ⟨S8x65536, .f32⟩
  | 57 => ⟨S_, .f32⟩
  | 58 => ⟨S8x65536, .f32⟩
  | 59 => ⟨S8x65536, .f32⟩
  | 60 => ⟨S8x65536, .f32⟩
  | 61 => ⟨S8x65536x1, .i32⟩
  | 62 => ⟨S_, .i32⟩
  | 63 => ⟨S8x65536x1, .i32⟩
  | 64 => ⟨S8x65536x1, .i1⟩
  | 65 => ⟨S_, .i32⟩
  | 66 => ⟨S8x65536x1, .i32⟩
  | 67 => ⟨S8x65536x1, .i32⟩
  | 68 => ⟨S8x65536x1, .i32⟩
  | 69 => ⟨S1, .i32⟩
  | 70 => ⟨S_, .i32⟩
  | 71 => ⟨S8x65536x1, .i32⟩
  | 72 => ⟨S8x65536x1, .i1⟩
  | 73 => ⟨S1x1x1, .i32⟩
  | 74 => ⟨S8x65536x1, .i32⟩
  | 75 => ⟨S8x65536x1, .i1⟩
  | 76 => ⟨S8x65536x1, .i1⟩
  | 77 => ⟨S_, .i1⟩
  | 78 => ⟨S8x65536, .i1⟩
  | 79 => ⟨S8x65536x256, .f32⟩
  | 80 => ⟨S8x65536x256, .i1⟩
  | 81 => ⟨S_, .f32⟩
  | 82 => ⟨S8x65536x256, .f32⟩
  | 83 => ⟨S8x65536x256, .f32⟩
  | 84 => ⟨S8x65536x1, .f32⟩
  | 85 => ⟨S8x65536x256, .f32⟩
  | 86 => ⟨S8x65536x256, .f32⟩
  | 87 => ⟨S8, .i32⟩
  | 88 => ⟨S8x1, .i32⟩
  | 89 => ⟨S_, .i32⟩
  | 90 => ⟨S8x1, .i32⟩
  | 91 => ⟨S8x1, .i32⟩
  | 92 => ⟨S8x65536, .i32⟩
  | 93 => ⟨S8x65536, .i32⟩
  | 94 => ⟨S524288, .i32⟩
  | 95 => ⟨S524288x256, .f32⟩
  | 96 => ⟨S_, .f32⟩
  | 97 => ⟨S32768x256, .f32⟩
  | 98 => ⟨S524288x1, .i32⟩
  | 99 => ⟨S32768x256, .f32⟩
  | 100 => ⟨S8x4096x256, .f32⟩
  | 101 => ⟨S_, .f32⟩
  | 102 => ⟨S_, .f32⟩
  | 103 => ⟨S8x4096x256, .f32⟩
  | 104 => ⟨S8x4096x256, .f32⟩
  | 105 => ⟨S8x4096x256, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S8x4096x256, .f32⟩
  | 113 => ⟨S8x4096x256, .f32⟩
  | 114 => ⟨S8x4096x256, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x256, .f32⟩
  | 122 => ⟨S8x4096x256, .f32⟩
  | 123 => ⟨S_, .f32⟩
  | 124 => ⟨S8x4096x1, .f32⟩
  | 125 => ⟨S8x4096x1, .f32⟩
  | 126 => ⟨S8x4096x1, .f32⟩
  | 127 => ⟨S8x4096x256, .f32⟩
  | _ => ⟨S8x4096x256, .f32⟩

abbrev hbmTy0_1 (i : Nat) : BufTy := match i % 128 with
  | 0 => ⟨S8x4096x256, .f32⟩
  | 1 => ⟨S1x1x256, .f32⟩
  | 2 => ⟨S8x4096x256, .f32⟩
  | 3 => ⟨S8x4096x256, .f32⟩
  | 4 => ⟨S1x1x256, .f32⟩
  | 5 => ⟨S8x4096x256, .f32⟩
  | 6 => ⟨S8x4096x256, .f32⟩
  | 7 => ⟨S_, .f32⟩
  | 8 => ⟨S8x4096x256, .f32⟩
  | 9 => ⟨S8x4096x256, .f32⟩
  | 10 => ⟨S8x4096x1, .f32⟩
  | 11 => ⟨S8x4096x256, .f32⟩
  | 12 => ⟨S8x4096x256, .f32⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v9 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_c_2 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_c_3 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_c : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_cst : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_cst_0 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_cst_1 : Ref sig .tc := ⟨.hbm, 106, rfl⟩
abbrev main_v33 : Ref sig .tc := ⟨.hbm, 107, rfl⟩
abbrev main_v34 : Ref sig .tc := ⟨.hbm, 108, rfl⟩
abbrev main_cst_2 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_3 : Ref sig .tc := ⟨.hbm, 115, rfl⟩
abbrev main_v40 : Ref sig .tc := ⟨.hbm, 116, rfl⟩
abbrev main_v41 : Ref sig .tc := ⟨.hbm, 117, rfl⟩
abbrev main_cst_4 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_5 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_call3_cst : Ref sig .tc := ⟨.hbm, 135, rfl⟩
abbrev main_call3_v0 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  slices_S8x2x65536_S8x1x65536_0_0_0 : S8x2x65536.Slices ![0, 0, 0] S8x1x65536
  shapeCasts_S8x1x65536_S8x65536 : S8x1x65536.ShapeCasts S8x65536
  slices_S8x2x65536_S8x1x65536_0_1_0 : S8x2x65536.Slices ![0, 1, 0] S8x1x65536
  bcast_S_S8x65536 : S_.BroadcastsInDim S8x65536 (![] : Fin 0 → Fin S8x65536.rank)
  shapeCasts_S8x65536_S8x65536x1 : S8x65536.ShapeCasts S8x65536x1
  bcast_S_S8x65536x1 : S_.BroadcastsInDim S8x65536x1 (![] : Fin 0 → Fin S8x65536x1.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  reducesTo_S8x65536x1_S8x65536_d2 : S8x65536x1.ReducesTo [2] S8x65536
  h_S_ : 0 < S_.numel
  bcast_S8x65536_S8x65536x1_0_1 : S8x65536.BroadcastsInDim S8x65536x1 (![0, 1] : Fin 2 → Fin S8x65536x1.rank)
  bcast_S8x65536_S8x65536x256_0_1 : S8x65536.BroadcastsInDim S8x65536x256 (![0, 1] : Fin 2 → Fin S8x65536x256.rank)
  bcast_S_S8x65536x256 : S_.BroadcastsInDim S8x65536x256 (![] : Fin 0 → Fin S8x65536x256.rank)
  bcast_S8x65536x1_S8x65536x256_0_1_2 : S8x65536x1.BroadcastsInDim S8x65536x256 (![0, 1, 2] : Fin 3 → Fin S8x65536x256.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  shapeCasts_S8x65536x256_S524288x256 : S8x65536x256.ShapeCasts S524288x256
  bcast_S_S32768x256 : S_.BroadcastsInDim S32768x256 (![] : Fin 0 → Fin S32768x256.rank)
  bcast_S524288_S524288x1_0 : S524288.BroadcastsInDim S524288x1 (![0] : Fin 1 → Fin S524288x1.rank)
  shapeCasts_S32768x256_S8x4096x256 : S32768x256.ShapeCasts S8x4096x256
  bcast_S_S8x4096x256 : S_.BroadcastsInDim S8x4096x256 (![] : Fin 0 → Fin S8x4096x256.rank)
  reducesTo_S8x4096x256_S8x4096_d2 : S8x4096x256.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  dot_S8x4096x256_S256x256_S8x4096x256_2_1_01_0_n_n_wf : DotDims.WF S8x4096x256 S256x256 S8x4096x256 [2] [1] [0, 1] [0] [] []
  gather_S8x4096_S8x65536x1_S8x65536_n_1_0_0_1_2_11_wf : GatherDims.WF S8x4096 S8x65536x1 S8x65536 [] [1] [0] [1] [0] 2 ![1, 1]
  gather_S8x4096x256_S8x65536x1_S8x65536x256_2_1_0_0_1_2_11256_wf : GatherDims.WF S8x4096x256 S8x65536x1 S8x65536x256 [2] [1] [0] [1] [0] 2 ![1, 1, 256]
  scatter_S32768x256_S524288x1_S524288x256_1_0_0_1_wf : ScatterDims.WF S32768x256 S524288x1 S524288x256 [1] [0] [0] 1

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def gather_S8x4096_S8x65536x1_S8x65536_n_1_0_0_1_2_11 : GatherDims S8x4096 S8x65536x1 S8x65536 where
  offsetDims := []
  collapsedSliceDims := [1]
  operandBatchingDims := [0]
  startIndicesBatchingDims := [0]
  startIndexMap := [1]
  indexVectorDim := 2
  sliceSizes := ![1, 1]
  wf := gather_S8x4096_S8x65536x1_S8x65536_n_1_0_0_1_2_11_wf
def gather_S8x4096x256_S8x65536x1_S8x65536x256_2_1_0_0_1_2_11256 : GatherDims S8x4096x256 S8x65536x1 S8x65536x256 where
  offsetDims := [2]
  collapsedSliceDims := [1]
  operandBatchingDims := [0]
  startIndicesBatchingDims := [0]
  startIndexMap := [1]
  indexVectorDim := 2
  sliceSizes := ![1, 1, 256]
  wf := gather_S8x4096x256_S8x65536x1_S8x65536x256_2_1_0_0_1_2_11256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf

class Facts : Prop extends Facts₀ where

variable [Facts]
-- ==== Proof.KRun.lean ====
/-
  The idealized kernel program's run, with its RESULT named.

  @main is seven segments: host operations, the projection region, three stretches of host operations (the
  gather of masked rows along the edges' sources and their accumulating scatter along the segment words), the
  combine region, and one last reshape. The launch theorem for such a chain ends with every unscoped buffer
  at the last boundary's contents W7; read at the result buffer this says where the result array ends, beside
  the seven argument arrays ending as launched.
-/
import proofs.«160068_j70334384439537_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.GcnRun

end
-- ==== Proof.Spec.lean ====
/-
  A graph-convolution layer with a residual, a layer normalisation, a ReLU and a node mask, as ONE function of
  its argument arrays, index by index, on the extended reals — in two arrangements.

  Nodes are addressed either as (batch b, node n) or by the flat row r = b * 4096 + n; edges either as
  (batch b, edge e) or by the flat edge e' = b * 65536 + e. The projected feature of node (b, n), column k, is
      lin b n k = (Σ_i X[b, n, i] * W[k, i]) + bias[k],
  the mask of the node is the integer nm b n read as a real, an edge e' carries the source node srcN e', the
  target node tgtN e' (both of its own batch) and the segment word segW e' = target + batch * 4096, and an
  edge lands on row r when its segment word, read signed, is r.

  * arrangement K: every edge carries lin(source) * nm(source); the rows' sums are scaled by the mask of the ROW
    they landed on and by the constant 2^-6:
        h2K r k = lin r k + ((Σ_{e' lands on r} lin(src e') k * nm(src e')) * nm r) * 2^-6
  * arrangement R: every edge carries lin(source) * (nm(source) * nm(target)); the rows' sums are divided by
    sqrt 4096:
        h2R r k = lin r k + (Σ_{e' lands on r} lin(src e') k * (nm(src e') * nm(tgt e'))) / sqrt 4096
  When every edge index lies in [0, 4096) an edge lands on the row of its own target, so nm(tgt e') = nm r for
  every edge in the sum; when X, W and bias hold real numbers every term is a real, the common factor nm r
  leaves the finite sum, and dividing by sqrt 4096 = 64 is multiplying by 2^-6: h2K = h2R.

  Both arrangements then normalise the row (mean and variance over its 256 columns, eps added under the
  inverse square root), scale by gamma, shift by beta, clamp below at 0 and multiply by the row's mask:
  rowOut.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-! ## Literals (kept as their f32 words; only 2^-6 and 4096 are ever evaluated) -/

/-- 256.0 -/
def c256 : EReal := Ideal.ofBits .f32 0x43800000#32
/-- f32(1e-5) -/
def ceps : EReal := Ideal.ofBits .f32 0x3727C5AC#32
/-- 2^-6 = 0.015625 -/
def c64inv : EReal := Ideal.ofBits .f32 0x3C800000#32
/-- 4096.0 -/
def c4096 : EReal := Ideal.ofBits .f32 0x45800000#32

/-! ## One row's normalisation -/

def mean (v : Fin 256 → EReal) : EReal := Ideal.div (∑ j : Fin 256, v j) c256

def var (v : Fin 256 → EReal) : EReal := Ideal.div (∑ j : Fin 256, (v j - mean v) * (v j - mean v)) c256

/-- Row v normalised, scaled by g, shifted by t, clamped below at 0, times the row's mask c; column k. -/
def rowOut (v g t : Fin 256 → EReal) (c : EReal) (k : Fin 256) : EReal :=
  max (((v k - mean v) * Ideal.rsqrt (var v + ceps)) * g k + t k) 0 * c

/-! ## Rows and edges, flat and by batch -/

def bOf (r : Fin 32768) : Fin 8 := ⟨r.val / 4096, by omega⟩
def nOf (r : Fin 32768) : Fin 4096 := ⟨r.val % 4096, by omega⟩
def row (b : Fin 8) (n : Fin 4096) : Fin 32768 := ⟨b.val * 4096 + n.val, by omega⟩

theorem bOf_row (b : Fin 8) (n : Fin 4096) : bOf (row b n) = b := Fin.ext (by simp only [bOf, row]; omega)
theorem nOf_row (b : Fin 8) (n : Fin 4096) : nOf (row b n) = n := Fin.ext (by simp only [nOf, row]; omega)
theorem row_bOf_nOf (r : Fin 32768) : row (bOf r) (nOf r) = r := Fin.ext (by simp only [bOf, nOf, row]; omega)

def eB (e : Fin 524288) : Fin 8 := ⟨e.val / 65536, by omega⟩
def eE (e : Fin 524288) : Fin 65536 := ⟨e.val % 65536, by omega⟩
def edge (b : Fin 8) (e : Fin 65536) : Fin 524288 := ⟨b.val * 65536 + e.val, by omega⟩

theorem eB_edge (b : Fin 8) (e : Fin 65536) : eB (edge b e) = b := Fin.ext (by simp only [eB, edge]; omega)
theorem eE_edge (b : Fin 8) (e : Fin 65536) : eE (edge b e) = e := Fin.ext (by simp only [eE, edge]; omega)
theorem edge_eB_eE (e : Fin 524288) : edge (eB e) (eE e) = e := Fin.ext (by simp only [eB, eE, edge]; omega)

/-- The node a 32-bit index word names: read signed, clamped into [0, 4095]. -/
def node (w : BitVec 32) : Fin 4096 := ⟨min w.toInt.toNat 4095, by omega⟩

section Arrays

variable (X : (⟨3, ![8, 4096, 256]⟩ : Shape).Idx → EReal) (W : (⟨2, ![256, 256]⟩ : Shape).Idx → EReal)
  (bias gam bet : (⟨1, ![256]⟩ : Shape).Idx → EReal)
  (E : (⟨3, ![8, 2, 65536]⟩ : Shape).Idx → BitVec 32) (Mk : (⟨2, ![8, 4096]⟩ : Shape).Idx → BitVec 32)

/-- The projected feature of node (b, n), column k. -/
def lin (b : Fin 8) (n : Fin 4096) (k : Fin 256) : EReal :=
  (∑ i : Fin 256, X (ix3 b n i) * W (ix2 k i)) + bias (ix1 k)

/-- The mask of node (b, n): the integer, read signed, as a real. -/
def nm (b : Fin 8) (n : Fin 4096) : EReal := (((Mk (ix2 b n)).toInt : ℝ) : EReal)

def srcW (e : Fin 524288) : BitVec 32 := E (ix3 (eB e) (0 : Fin 2) (eE e))
def tgtW (e : Fin 524288) : BitVec 32 := E (ix3 (eB e) (1 : Fin 2) (eE e))
def srcN (e : Fin 524288) : Fin 4096 := node (srcW E e)
def tgtN (e : Fin 524288) : Fin 4096 := node (tgtW E e)
/-- The segment word of an edge: its target plus its batch times 4096, in 32-bit arithmetic. -/
def segW (e : Fin 524288) : BitVec 32 := tgtW E e + BitVec.ofNat 32 (eB e).val * 4096#32

/-- The edges that land on row r. -/
def lands (r : Fin 32768) : Finset (Fin 524288) := Finset.univ.filter fun e => (segW E e).toInt = (r.val : Int)

def msgK (e : Fin 524288) (k : Fin 256) : EReal := lin X W bias (eB e) (srcN E e) k * nm Mk (eB e) (srcN E e)

def msgR (e : Fin 524288) (k : Fin 256) : EReal :=
  lin X W bias (eB e) (srcN E e) k * (nm Mk (eB e) (srcN E e) * nm Mk (eB e) (tgtN E e))

def h2K (r : Fin 32768) (k : Fin 256) : EReal :=
  lin X W bias (bOf r) (nOf r) k + ((∑ e ∈ lands E r, msgK X W bias E Mk e k) * nm Mk (bOf r) (nOf r)) * c64inv

def h2R (r : Fin 32768) (k : Fin 256) : EReal :=
  lin X W bias (bOf r) (nOf r) k + Ideal.div (∑ e ∈ lands E r, msgR X W bias E Mk e k) (Ideal.sqrt c4096)

/-- The layer's output at (b, n, k), arrangement K. -/
def GK (i : (⟨3, ![8, 4096, 256]⟩ : Shape).Idx) : EReal :=
  rowOut (fun k => h2K X W bias E Mk (row (i 0) (i 1)) k) (fun k => gam (ix1 k)) (fun k => bet (ix1 k)) (nm Mk (i 0) (i 1)) (i 2)

/-- The layer's output at (b, n, k), arrangement R. -/
def GR (i : (⟨3, ![8, 4096, 256]⟩ : Shape).Idx) : EReal :=
  rowOut (fun k => h2R X W bias E Mk (row (i 0) (i 1)) k) (fun k => gam (ix1 k)) (fun k => bet (ix1 k)) (nm Mk (i 0) (i 1)) (i 2)

/-- Every edge index lies in [0, 4096). -/
def InRange : Prop := ∀ i, 0 ≤ (E i).toInt ∧ (E i).toInt < 4096

/-- X, W and bias hold real numbers. -/
def RealIn : Prop := (∀ i, ∃ x : ℝ, X i = (x : EReal)) ∧ (∀ i, ∃ x : ℝ, W i = (x : EReal)) ∧ (∀ i, ∃ x : ℝ, bias i = (x : EReal))

end Arrays

end Cert.Gcn

end
-- ==== Proof.Payloads.lean ====
/-
  The two kernel bodies of the graph-convolution layer, read at one entry of the block each leaves.

  * The projection body holds a block of 1024 rows of X, the transposed weight (entry (i, q) is W[q, i]),
    the bias and the rows' mask column. It leaves two blocks: at (p, q) the first holds
        (Σ_i X[p, i] * Wt[i, q]) + bias[q],
    and the second holds that number times the mask of row p read as a real.
  * The combine body holds 2048 rows of projected features h, the rows' aggregated messages a, the scale
    gamma, the shift beta and the rows' mask column. With v k = h[p, k] + (a[p, k] * mask p) * 2^-6 it leaves
    at (p, q) the row v normalised over its 256 columns (mean, variance, eps under the inverse square
    root), scaled by gamma, shifted by beta, clamped below at 0 and multiplied by the mask of row p.

  Every store writes the whole block, so the block after the body is the stored value itself; the
  stored value is read entry by entry through the pointwise operations, the row and column broadcasts,
  the lane sums and the matrix product, each of which is the exact textbook operation on the extended reals.
-/
import proofs.«160068_j70334384439537_2_alg».proof.Proof.Gen.KernelIdeal.Frame
import proofs.«160068_j70334384439537_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.Pay

open Idealize.ShloMosaic Idealize.ShloMosaic.ValueIdx Cert.KernelIdeal Cert.KernelIdeal.Gen

/-! ## Whole-block accesses: a rectangle at the origin of full extent is the whole block -/

theorem hz2 : (![0, 0] : Fin 2 → Nat) = fun _ => 0 := funext fun a => by fin_cases a <;> rfl
theorem hz1 : (![0] : Fin 1 → Nat) = fun _ => 0 := funext fun a => by fin_cases a <;> rfl

/-! ## Broadcasts read at an entry -/

section Bcast
variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] viewed as one row [1, b] and broadcast to [a, b] reads, at (p, c), the vector's entry c. -/
theorem broadcastTo_row_apply {a b : ℕ} (v : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix1 c) :=
  (broadcastTo_1b_ab_apply _ h p c).trans (shapeCast_a_1a_apply v hc (0 : Fin 1) c)

end Bcast

/-! ## The projection body -/

/-- The left operand's index at output (p, q): its row is the output's row. -/
theorem lhs_row (j : S1024x256.Idx) (k : dot_S1024x256_S256x256_S1024x256_1_0_0_1_n_n.contr.Idx) :
    (dot_S1024x256_S256x256_S1024x256_1_0_0_1_n_n.lhsIdx j k 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Its column is the contracted position. -/
theorem lhs_col (j : S1024x256.Idx) (k : dot_S1024x256_S256x256_S1024x256_1_0_0_1_n_n.contr.Idx) :
    (dot_S1024x256_S256x256_S1024x256_1_0_0_1_n_n.lhsIdx j k 1).val = (k ⟨0, by decide⟩).val :=
  dot_S1024x256_S256x256_S1024x256_1_0_0_1_n_n.lhsIdx_val_of_single rfl j k
/-- The right operand's index at output (p, q): its row is the contracted position. -/
theorem rhs_row (j : S1024x256.Idx) (k : dot_S1024x256_S256x256_S1024x256_1_0_0_1_n_n.contr.Idx) :
    (dot_S1024x256_S256x256_S1024x256_1_0_0_1_n_n.rhsIdx j k 0).val = (k ⟨0, by decide⟩).val :=
  dot_S1024x256_S256x256_S1024x256_1_0_0_1_n_n.rhsIdx_val_of_single rfl j k
/-- Its column is the output's column. -/
theorem rhs_col (j : S1024x256.Idx) (k : dot_S1024x256_S256x256_S1024x256_1_0_0_1_n_n.contr.Idx) :
    (dot_S1024x256_S256x256_S1024x256_1_0_0_1_n_n.rhsIdx j k 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix product into a zero block, at (p, q): the sum over the 256 contracted positions. -/
theorem matmul_read (a : FVec Ideal S1024x256 .bf16) (b : FVec Ideal S256x256 .bf16) (p : Fin 1024) (q : Fin 256) :
    matmul dot_S1024x256_S256x256_S1024x256_1_0_0_1_n_n none a b (constant (F := Ideal) S1024x256 .f32 0x00000000#32) (ix2 p q)
      = ∑ i : Fin 256, a (ix2 p i) * b (ix2 i q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k :=
    funext fun ax => Fin.ext (by
      match ax with
      | ⟨0, _⟩ => exact lhs_row _ _
      | ⟨1, _⟩ => exact (lhs_col _ _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun ax => Fin.ext (by
      match ax with
      | ⟨0, _⟩ => exact (rhs_row _ _).trans hk
      | ⟨1, _⟩ => exact rhs_col _ _)
  rw [el, er]

/-- The first stored value at (p, q): the product's entry plus the bias of column q. -/
theorem k0_pay1_apply (v0 : Vec Ideal S1024x256 .f32) (v3 : Vec Ideal S256x256 .bf16) (v5 : Vec Ideal S256 .f32)
    (p : Fin 1024) (q : Fin 256) :
    k0_pay1 (F := Ideal) v0 v3 v5 (ix2 p q) = (∑ i : Fin 256, v0 (ix2 p i) * v3 (ix2 i q)) + v5 (ix1 q) := by
  unfold k0_pay1
  simp only [shapeCast_self]
  rw [addf_apply, matmul_read, broadcastTo_row_apply]
  rfl

/-- The second stored value at (p, q): the first times the mask of row p read as a real. -/
theorem k0_pay2_apply (v0 : Vec Ideal S1024x256 .f32) (v3 : Vec Ideal S256x256 .bf16) (v5 : Vec Ideal S256 .f32)
    (v11 : Vec Ideal S1024x1 .i32) (p : Fin 1024) (q : Fin 256) :
    k0_pay2 (F := Ideal) v0 v3 v5 v11 (ix2 p q)
      = ((∑ i : Fin 256, v0 (ix2 p i) * v3 (ix2 i q)) + v5 (ix1 q)) * (((v11 (ix2 p (0 : Fin 1))).toInt : ℝ) : EReal) := by
  unfold k0_pay2
  simp only [shapeCast_self]
  rw [mulf_apply, k0_pay1_apply, broadcastTo_a1_ab_apply]
  rfl

/-- The first output block after the projection body, at (p, q). -/
theorem out0_4_apply (x0 : Vec Ideal S1024x256 .f32) (x1 : Vec Ideal S256x256 .bf16) (x2 : Vec Ideal S256 .f32)
    (x3 : Vec Ideal S1024x1 .i32) (p : Fin 1024) (q : Fin 256) :
    out0_4 (F := Ideal) x0 x1 x2 x3 (ix2 p q) = (∑ i : Fin 256, x0 (ix2 p i) * x1 (ix2 i q)) + x2 (ix1 q) := by
  unfold out0_4
  rw [View.canon_unit_zero hz2]
  simp only [View.ld_unit_zero (S := S1024x256) hz2, View.ld_unit_zero (S := S256x256) hz2, View.ld_unit_zero (S := S256) hz1]
  exact k0_pay1_apply x0 x1 x2 p q

/-- The second output block after the projection body, at (p, q). -/
theorem out0_5_apply (x0 : Vec Ideal S1024x256 .f32) (x1 : Vec Ideal S256x256 .bf16) (x2 : Vec Ideal S256 .f32)
    (x3 : Vec Ideal S1024x1 .i32) (p : Fin 1024) (q : Fin 256) :
    out0_5 (F := Ideal) x0 x1 x2 x3 (ix2 p q)
      = ((∑ i : Fin 256, x0 (ix2 p i) * x1 (ix2 i q)) + x2 (ix1 q)) * (((x3 (ix2 p (0 : Fin 1))).toInt : ℝ) : EReal) := by
  unfold out0_5
  rw [View.canon_unit_zero hz2]
  simp only [View.ld_unit_zero (S := S1024x256) hz2, View.ld_unit_zero (S := S256x256) hz2, View.ld_unit_zero (S := S256) hz1,
    View.ld_unit_zero (S := S1024x1) hz2]
  exact k0_pay2_apply x0 x1 x2 x3 p q

/-! ## The combine body -/

section Keepdims
variable {α : Type}

/-- A vector [a] viewed as a column [a, 1] reads, at (p, u), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Keepdims

/-- A lane sum over the 256 columns with a zero accumulator, at row p: the sum of the row's entries. -/
theorem rowsum_read (u : FVec Ideal S2048x256 .f32) (p : Fin 2048) :
    multiReduction (F := Ideal) .add [1] S2048 u 0x00000000#32 reduces_S2048x256_S2048 (.inl rfl) rfl (ix1 p)
      = ∑ k : Fin 256, u (ix2 p k) :=
  (Ideal.multiReduction_add_single u 0x00000000#32 reduces_S2048x256_S2048 (.inl rfl) rfl (ix1 p)).trans
    (Finset.sum_congr rfl fun k _ => congrArg u (funext fun a => Fin.ext (by
      match a with
      | ⟨0, _⟩ => rfl
      | ⟨1, _⟩ => rfl)))

/-- The rows the body normalises: h + (a * mask) * 2^-6, the mask column broadcast along the rows. -/
def rowVal (h a : FVec Ideal S2048x256 .f32) (mk : FVec Ideal S2048x1 .f32) : FVec Ideal S2048x256 .f32 :=
  addf h (mulf (mulf a (broadcastTo S2048x256 mk broadcasts_S2048x1_S2048x256))
    (broadcast S2048x256 (Scalar.ofBits (F := Ideal) .f32 0x3C800000#32)))

/-- The column of the rows' lane sums divided by 256. -/
def colMean (u : FVec Ideal S2048x256 .f32) : FVec Ideal S2048x1 .f32 :=
  divf (shapeCast S2048x1 (multiReduction (F := Ideal) .add [1] S2048 u 0x00000000#32 reduces_S2048x256_S2048 (.inl rfl) rfl)
      shapeCasts_S2048_S2048x1)
    (broadcast S2048x1 (Scalar.ofBits (F := Ideal) .f32 0x43800000#32))

/-- The rows minus their means. -/
def centred (u : FVec Ideal S2048x256 .f32) : FVec Ideal S2048x256 .f32 :=
  subf u (broadcastTo S2048x256 (colMean u) broadcasts_S2048x1_S2048x256)

/-- The rows normalised, scaled, shifted, clamped below at 0 and multiplied by the mask column. -/
def normed (u : FVec Ideal S2048x256 .f32) (g t : Vec Ideal S256 .f32) (mk : FVec Ideal S2048x1 .f32) :
    FVec Ideal S2048x256 .f32 :=
  mulf
    (maximumf
      (addf
        (mulf
          (mulf (centred u)
            (broadcastTo S2048x256
              (rsqrt (addf (colMean (mulf (centred u) (centred u)))
                (broadcast S2048x1 (Scalar.ofBits (F := Ideal) .f32 0x3727C5AC#32))))
              broadcasts_S2048x1_S2048x256))
          (broadcastTo S2048x256 (shapeCast S1x256 g shapeCasts_S256_S1x256) broadcasts_S1x256_S2048x256))
        (broadcastTo S2048x256 (shapeCast S1x256 t shapeCasts_S256_S1x256) broadcasts_S1x256_S2048x256))
      (broadcast S2048x256 (Scalar.ofBits (F := Ideal) .f32 0x00000000#32)))
    (broadcastTo S2048x256 mk broadcasts_S2048x1_S2048x256)

/-- The body's stored value is that composition of its loaded blocks. -/
theorem k1_pay1_eq (v0 v2 : Vec Ideal S2048x256 .f32) (v4 : Vec Ideal S2048x1 .i32) (v26 v28 : Vec Ideal S256 .f32) :
    k1_pay1 (F := Ideal) v0 v2 v4 v26 v28
      = normed (rowVal v0 v2 (sitofp .f32 v4)) v26 v28 (sitofp .f32 v4) := by
  unfold k1_pay1
  simp only [shapeCast_self]
  rfl

/-- A row's entry: h[p, k] + (a[p, k] * mask p) * 2^-6. -/
theorem rowVal_read (h a : FVec Ideal S2048x256 .f32) (mk : FVec Ideal S2048x1 .f32) (p : Fin 2048) (k : Fin 256) :
    rowVal h a mk (ix2 p k) = h (ix2 p k) + (a (ix2 p k) * mk (ix2 p (0 : Fin 1))) * Cert.Gcn.c64inv := by
  show h (ix2 p k) + (a (ix2 p k) * broadcastTo S2048x256 mk broadcasts_S2048x1_S2048x256 (ix2 p k)) * Cert.Gcn.c64inv = _
  rw [broadcastTo_a1_ab_apply]

/-- The mean column at row p is the mean of row p. -/
theorem colMean_read (u : FVec Ideal S2048x256 .f32) (p : Fin 2048) :
    colMean u (ix2 p (0 : Fin 1)) = Cert.Gcn.mean fun k => u (ix2 p k) := by
  show Ideal.div (shapeCast S2048x1 (multiReduction (F := Ideal) .add [1] S2048 u 0x00000000#32 reduces_S2048x256_S2048 (.inl rfl) rfl)
      shapeCasts_S2048_S2048x1 (ix2 p (0 : Fin 1))) Cert.Gcn.c256 = _
  rw [shapeCast_a_a1_apply, rowsum_read]
  rfl

/-- A centred entry: the entry minus its row's mean. -/
theorem centred_read (u : FVec Ideal S2048x256 .f32) (p : Fin 2048) (k : Fin 256) :
    centred u (ix2 p k) = u (ix2 p k) - Cert.Gcn.mean fun j => u (ix2 p j) := by
  show u (ix2 p k) - broadcastTo S2048x256 (colMean u) broadcasts_S2048x1_S2048x256 (ix2 p k) = _
  rw [broadcastTo_a1_ab_apply, colMean_read]

/-- The mean column of the squared centred rows at row p is the variance of row p. -/
theorem colVar_read (u : FVec Ideal S2048x256 .f32) (p : Fin 2048) :
    colMean (mulf (centred u) (centred u)) (ix2 p (0 : Fin 1)) = Cert.Gcn.var fun k => u (ix2 p k) := by
  rw [colMean_read]
  unfold Cert.Gcn.var
  refine congrArg (fun s => Ideal.div s Cert.Gcn.c256) (Finset.sum_congr rfl fun j _ => ?_)
  show mulf (centred u) (centred u) (ix2 p j) = _
  rw [mulf_apply, centred_read]

/-- The composition at (p, q): the row's normalisation. -/
theorem normed_read (u : FVec Ideal S2048x256 .f32) (g t : Vec Ideal S256 .f32) (mk : FVec Ideal S2048x1 .f32)
    (p : Fin 2048) (q : Fin 256) :
    normed u g t mk (ix2 p q)
      = Cert.Gcn.rowOut (fun k => u (ix2 p k)) (fun k => g (ix1 k)) (fun k => t (ix1 k)) (mk (ix2 p (0 : Fin 1))) q := by
  show max (((centred u (ix2 p q)
        * broadcastTo S2048x256
            (rsqrt (addf (colMean (mulf (centred u) (centred u)))
              (broadcast S2048x1 (Scalar.ofBits (F := Ideal) .f32 0x3727C5AC#32))))
            broadcasts_S2048x1_S2048x256 (ix2 p q))
        * broadcastTo S2048x256 (shapeCast S1x256 g shapeCasts_S256_S1x256) broadcasts_S1x256_S2048x256 (ix2 p q))
        + broadcastTo S2048x256 (shapeCast S1x256 t shapeCasts_S256_S1x256) broadcasts_S1x256_S2048x256 (ix2 p q))
      (Ideal.ofBits .f32 0x00000000#32)
      * broadcastTo S2048x256 mk broadcasts_S2048x1_S2048x256 (ix2 p q) = _
  rw [broadcastTo_a1_ab_apply, broadcastTo_a1_ab_apply, broadcastTo_row_apply, broadcastTo_row_apply, centred_read,
    Ideal.ofBits_zero_f32]
  show max (((u (ix2 p q) - Cert.Gcn.mean fun j => u (ix2 p j))
        * Ideal.rsqrt (colMean (mulf (centred u) (centred u)) (ix2 p (0 : Fin 1)) + Cert.Gcn.ceps))
        * g (ix1 q) + t (ix1 q)) 0 * mk (ix2 p (0 : Fin 1)) = _
  rw [colVar_read]
  rfl

/-- The stored value at (p, q). -/
theorem k1_pay1_apply (v0 v2 : Vec Ideal S2048x256 .f32) (v4 : Vec Ideal S2048x1 .i32) (v26 v28 : Vec Ideal S256 .f32)
    (p : Fin 2048) (q : Fin 256) :
    k1_pay1 (F := Ideal) v0 v2 v4 v26 v28 (ix2 p q)
      = Cert.Gcn.rowOut
          (fun k => v0 (ix2 p k) + (v2 (ix2 p k) * (((v4 (ix2 p (0 : Fin 1))).toInt : ℝ) : EReal)) * Cert.Gcn.c64inv)
          (fun k => v26 (ix1 k)) (fun k => v28 (ix1 k)) (((v4 (ix2 p (0 : Fin 1))).toInt : ℝ) : EReal) q := by
  rw [k1_pay1_eq, normed_read]
  refine congrArg (fun v => Cert.Gcn.rowOut v (fun k => v26 (ix1 k)) (fun k => v28 (ix1 k)) _ q) (funext fun k => ?_)
  rw [rowVal_read]
  rfl

/-- The output block after the combine body, at (p, q). -/
theorem out1_5_apply (x0 x1 : Vec Ideal S2048x256 .f32) (x2 x3 : Vec Ideal S256 .f32) (x4 : Vec Ideal S2048x1 .i32)
    (p : Fin 2048) (q : Fin 256) :
    out1_5 (F := Ideal) x0 x1 x2 x3 x4 (ix2 p q)
      = Cert.Gcn.rowOut
          (fun k => x0 (ix2 p k) + (x1 (ix2 p k) * (((x4 (ix2 p (0 : Fin 1))).toInt : ℝ) : EReal)) * Cert.Gcn.c64inv)
          (fun k => x2 (ix1 k)) (fun k => x3 (ix1 k)) (((x4 (ix2 p (0 : Fin 1))).toInt : ℝ) : EReal) q := by
  unfold out1_5
  rw [View.canon_unit_zero hz2]
  simp only [View.ld_unit_zero (S := S2048x256) hz2, View.ld_unit_zero (S := S2048x1) hz2, View.ld_unit_zero (S := S256) hz1]
  exact k1_pay1_apply x0 x1 x4 x2 x3 p q

end Cert.Gcn.Pay

end
-- ==== Proof.K0.lean ====
/-
  What the projection region leaves in its two output arrays.

  The region's grid has 32 points; at point t every window of 1024 rows sits at rows t*1024 ... t*1024+1023
  of its array, and the weight and bias windows are their whole arrays. The body's block at a point is, at
  (p, q), the product of row p of the feature block with column q of the weights plus the bias — and, for the
  second output, that times the mask of row p. So point t writes back exactly rows t*1024 ... of ONE
  whole-array function of the arrays the region finds at its entry, and the 32 blocks tile the 32768 rows.
-/
import proofs.«160068_j70334384439537_2_alg».proof.Proof.Payloads
import Idealize.ShloMosaic.Lib.Pipeline.Value

set_option maxRecDepth 16384

noncomputable section

namespace Cert.KernelIdeal.GcnVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The projected rows: row r of the first array times column q of the second, plus the third at q. -/
def H0 (A0 : S32768x256.Idx → EReal) (A1 : S256x256.Idx → EReal) (A2 : S256.Idx → EReal) : S32768x256.Idx → EReal :=
  fun i => (∑ k : Fin 256, A0 (ix2 (i 0) k) * A1 (ix2 k (i 1))) + A2 (ix1 (i 1))

/-- The projected rows, each times the signed integer its row carries in the mask column. -/
def HM0 (A0 : S32768x256.Idx → EReal) (A1 : S256x256.Idx → EReal) (A2 : S256.Idx → EReal) (A3 : S32768x1.Idx → BitVec 32) :
    S32768x256.Idx → EReal :=
  fun i => H0 A0 A1 A2 i * (((A3 (ix2 (i 0) (0 : Fin 1))).toInt : ℝ) : EReal)

variable (V : (c : Dev nD) → (b : Ref sig .tc) → Buf (Elt Ideal) ((c : Thread nD τ).loc b))

/-- The printed index maps over the 32 grid points: a row window's block index is the point, every other is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK through the first output window: block t of the projected rows. -/
theorem flushed0_4_eq (c : Dev nD) (t : Fin cfg0.N) :
    (dat0 V c).flushed 4 t = ((cfg0.win 4).blk t).view.read (Elt Ideal)
      (H0 (V c main_v0) (V c main_v3) (V c main_arg2)) := by
  show (cfg0.win 4).cut (grid0.coords t) ((dat0 V c).after 4 t) = _
  rw [after0_4]
  obtain ⟨e00, e01, e10, e11, e20, e30, e31, e40, e41, e50, e51⟩ := idx_facts0 t
  funext j
  obtain ⟨p, q, rfl⟩ : ∃ (p : Fin 1024) (q : Fin 256), j = ix2 p q := ⟨j 0, j 1, eq_ix2 j⟩
  show out0_4 (F := Ideal) (iblk0 V c 0 t) (iblk0 V c 1 t) (iblk0 V c 2 t) (iblk0 V c 3 t) (ix2 p q)
    = H0 (V c main_v0) (V c main_v3) (V c main_arg2) (((cfg0.win 4).blk t).view.emb (ix2 p q))
  rw [Cert.Gcn.Pay.out0_4_apply]
  have h0 : ∀ i : Fin 256, ((cfg0.win 0).blk t).view.emb (ix2 p i)
      = ix2 ((((cfg0.win 4).blk t).view.emb (ix2 p q)) 0) i := fun i => by
    funext a; apply Fin.ext
    match a with
    | ⟨0, _⟩ => show win0_0.index t (0 : Fin 2) * 1024 + 1 * p.val = win0_4.index t (0 : Fin 2) * 1024 + 1 * p.val; omega
    | ⟨1, _⟩ => show win0_0.index t (1 : Fin 2) * 256 + 1 * i.val = i.val; omega
  have h1 : ∀ i : Fin 256, ((cfg0.win 1).blk t).view.emb (ix2 i q)
      = ix2 i ((((cfg0.win 4).blk t).view.emb (ix2 p q)) 1) := fun i => by
    funext a; apply Fin.ext
    match a with
    | ⟨0, _⟩ => show win0_1.index t (0 : Fin 2) * 256 + 1 * i.val = i.val; omega
    | ⟨1, _⟩ => show win0_1.index t (1 : Fin 2) * 256 + 1 * q.val = win0_4.index t (1 : Fin 2) * 256 + 1 * q.val; omega
  have h2 : ((cfg0.win 2).blk t).view.emb (ix1 q) = ix1 ((((cfg0.win 4).blk t).view.emb (ix2 p q)) 1) := by
    funext a; apply Fin.ext
    match a with
    | ⟨0, _⟩ => show win0_2.index t (0 : Fin 1) * 256 + 1 * q.val = win0_4.index t (1 : Fin 2) * 256 + 1 * q.val; omega
  have r0 : ∀ i : Fin 256, iblk0 V c 0 t (ix2 p i)
      = (V c main_v0 : S32768x256.Idx → EReal) (ix2 ((((cfg0.win 4).blk t).view.emb (ix2 p q)) 0) i) := fun i => by
    show (V c main_v0 : S32768x256.Idx → EReal) (((cfg0.win 0).blk t).view.emb (ix2 p i)) = _
    rw [h0 i] <;> rfl
  have r1 : ∀ i : Fin 256, iblk0 V c 1 t (ix2 i q)
      = (V c main_v3 : S256x256.Idx → EReal) (ix2 i ((((cfg0.win 4).blk t).view.emb (ix2 p q)) 1)) := fun i => by
    show (V c main_v3 : S256x256.Idx → EReal) (((cfg0.win 1).blk t).view.emb (ix2 i q)) = _
    rw [h1 i] <;> rfl
  have r2 : iblk0 V c 2 t (ix1 q)
      = (V c main_arg2 : S256.Idx → EReal) (ix1 ((((cfg0.win 4).blk t).view.emb (ix2 p q)) 1)) := by
    show (V c main_arg2 : S256.Idx → EReal) (((cfg0.win 2).blk t).view.emb (ix1 q)) = _
    rw [h2] <;> rfl
  rw [r2]
  simp only [r0, r1]
  rfl

/-- WHAT POINT t WRITES BACK through the second output window: block t of the masked projected rows. -/
theorem flushed0_5_eq (c : Dev nD) (t : Fin cfg0.N) :
    (dat0 V c).flushed 5 t = ((cfg0.win 5).blk t).view.read (Elt Ideal)
      (HM0 (V c main_v0) (V c main_v3) (V c main_arg2) (V c main_v1)) := by
  show (cfg0.win 5).cut (grid0.coords t) ((dat0 V c).after 5 t) = _
  rw [after0_5]
  obtain ⟨e00, e01, e10, e11, e20, e30, e31, e40, e41, e50, e51⟩ := idx_facts0 t
  funext j
  obtain ⟨p, q, rfl⟩ : ∃ (p : Fin 1024) (q : Fin 256), j = ix2 p q := ⟨j 0, j 1, eq_ix2 j⟩
  show out0_5 (F := Ideal) (iblk0 V c 0 t) (iblk0 V c 1 t) (iblk0 V c 2 t) (iblk0 V c 3 t) (ix2 p q)
    = HM0 (V c main_v0) (V c main_v3) (V c main_arg2) (V c main_v1) (((cfg0.win 5).blk t).view.emb (ix2 p q))
  rw [Cert.Gcn.Pay.out0_5_apply]
  have h0 : ∀ i : Fin 256, ((cfg0.win 0).blk t).view.emb (ix2 p i)
      = ix2 ((((cfg0.win 5).blk t).view.emb (ix2 p q)) 0) i := fun i => by
    funext a; apply Fin.ext
    match a with
    | ⟨0, _⟩ => show win0_0.index t (0 : Fin 2) * 1024 + 1 * p.val = win0_5.index t (0 : Fin 2) * 1024 + 1 * p.val; omega
    | ⟨1, _⟩ => show win0_0.index t (1 : Fin 2) * 256 + 1 * i.val = i.val; omega
  have h1 : ∀ i : Fin 256, ((cfg0.win 1).blk t).view.emb (ix2 i q)
      = ix2 i ((((cfg0.win 5).blk t).view.emb (ix2 p q)) 1) := fun i => by
    funext a; apply Fin.ext
    match a with
    | ⟨0, _⟩ => show win0_1.index t (0 : Fin 2) * 256 + 1 * i.val = i.val; omega
    | ⟨1, _⟩ => show win0_1.index t (1 : Fin 2) * 256 + 1 * q.val = win0_5.index t (1 : Fin 2) * 256 + 1 * q.val; omega
  have h2 : ((cfg0.win 2).blk t).view.emb (ix1 q) = ix1 ((((cfg0.win 5).blk t).view.emb (ix2 p q)) 1) := by
    funext a; apply Fin.ext
    match a with
    | ⟨0, _⟩ => show win0_2.index t (0 : Fin 1) * 256 + 1 * q.val = win0_5.index t (1 : Fin 2) * 256 + 1 * q.val; omega
  have h3 : ((cfg0.win 3).blk t).view.emb (ix2 p (0 : Fin 1))
      = ix2 ((((cfg0.win 5).blk t).view.emb (ix2 p q)) 0) (0 : Fin 1) := by
    funext a; apply Fin.ext
    match a with
    | ⟨0, _⟩ => show win0_3.index t (0 : Fin 2) * 1024 + 1 * p.val = win0_5.index t (0 : Fin 2) * 1024 + 1 * p.val; omega
    | ⟨1, _⟩ => show win0_3.index t (1 : Fin 2) * 1 + 1 * 0 = 0; omega
  have r0 : ∀ i : Fin 256, iblk0 V c 0 t (ix2 p i)
      = (V c main_v0 : S32768x256.Idx → EReal) (ix2 ((((cfg0.win 5).blk t).view.emb (ix2 p q)) 0) i) := fun i => by
    show (V c main_v0 : S32768x256.Idx → EReal) (((cfg0.win 0).blk t).view.emb (ix2 p i)) = _
    rw [h0 i] <;> rfl
  have r1 : ∀ i : Fin 256, iblk0 V c 1 t (ix2 i q)
      = (V c main_v3 : S256x256.Idx → EReal) (ix2 i ((((cfg0.win 5).blk t).view.emb (ix2 p q)) 1)) := fun i => by
    show (V c main_v3 : S256x256.Idx → EReal) (((cfg0.win 1).blk t).view.emb (ix2 i q)) = _
    rw [h1 i] <;> rfl
  have r2 : iblk0 V c 2 t (ix1 q)
      = (V c main_arg2 : S256.Idx → EReal) (ix1 ((((cfg0.win 5).blk t).view.emb (ix2 p q)) 1)) := by
    show (V c main_arg2 : S256.Idx → EReal) (((cfg0.win 2).blk t).view.emb (ix1 q)) = _
    rw [h2] <;> rfl
  have r3 : iblk0 V c 3 t (ix2 p (0 : Fin 1))
      = (V c main_v1 : S32768x1.Idx → BitVec 32) (ix2 ((((cfg0.win 5).blk t).view.emb (ix2 p q)) 0) (0 : Fin 1)) := by
    show (V c main_v1 : S32768x1.Idx → BitVec 32) (((cfg0.win 3).blk t).view.emb (ix2 p (0 : Fin 1))) = _
    rw [h3] <;> rfl
  rw [r2, r3]
  simp only [r0, r1]
  rfl

/-! ## The blocks tile the arrays -/

theorem mem_blk0_4 (t : Fin cfg0.N) (i : S32768x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v4_0).slice (win0_4.rect t)).set ↔ _
  rw [View.set_slice_whole, Rect.mem_set_unit]
  exact Iff.rfl

theorem mem_blk0_5 (t : Fin cfg0.N) (i : S32768x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v4_1).slice (win0_5.rect t)).set ↔ _
  rw [View.set_slice_whole, Rect.mem_set_unit]
  exact Iff.rfl

/-- The point whose block holds row r: r / 1024. -/
def pt0 (r : Nat) (hr : r < 32768) : Fin cfg0.N := ⟨r / 1024, by rw [show cfg0.N = 32 from N_0]; omega⟩

theorem cover0_4 (i : S32768x256.Idx) :
    ∃ t : Fin cfg0.N, (cfg0.win 4).flush t = true ∧ i ∈ ((cfg0.win 4).blk t).view.set := by
  have hi0 : (i 0).val < 32768 := (i 0).isLt
  have hi1 : (i 1).val < 256 := (i 1).isLt
  obtain ⟨e00, e01, e10, e11, e20, e30, e31, e40, e41, e50, e51⟩ := idx_facts0 (pt0 (i 0).val hi0)
  have ht : (pt0 (i 0).val hi0).val = (i 0).val / 1024 := rfl
  refine ⟨pt0 (i 0).val hi0, flush0_4 _, ?_⟩
  rw [mem_blk0_4]
  intro a
  match a with
  | ⟨0, _⟩ =>
    show win0_4.index (pt0 (i 0).val hi0) (0 : Fin 2) * 1024 ≤ (i 0).val
      ∧ (i 0).val < win0_4.index (pt0 (i 0).val hi0) (0 : Fin 2) * 1024 + 1024
    omega
  | ⟨1, _⟩ =>
    show win0_4.index (pt0 (i 0).val hi0) (1 : Fin 2) * 256 ≤ (i 1).val
      ∧ (i 1).val < win0_4.index (pt0 (i 0).val hi0) (1 : Fin 2) * 256 + 256
    omega

theorem cover0_5 (i : S32768x256.Idx) :
    ∃ t : Fin cfg0.N, (cfg0.win 5).flush t = true ∧ i ∈ ((cfg0.win 5).blk t).view.set := by
  have hi0 : (i 0).val < 32768 := (i 0).isLt
  have hi1 : (i 1).val < 256 := (i 1).isLt
  obtain ⟨e00, e01, e10, e11, e20, e30, e31, e40, e41, e50, e51⟩ := idx_facts0 (pt0 (i 0).val hi0)
  have ht : (pt0 (i 0).val hi0).val = (i 0).val / 1024 := rfl
  refine ⟨pt0 (i 0).val hi0, flush0_5 _, ?_⟩
  rw [mem_blk0_5]
  intro a
  match a with
  | ⟨0, _⟩ =>
    show win0_5.index (pt0 (i 0).val hi0) (0 : Fin 2) * 1024 ≤ (i 0).val
      ∧ (i 0).val < win0_5.index (pt0 (i 0).val hi0) (0 : Fin 2) * 1024 + 1024
    omega
  | ⟨1, _⟩ =>
    show win0_5.index (pt0 (i 0).val hi0) (1 : Fin 2) * 256 ≤ (i 1).val
      ∧ (i 1).val < win0_5.index (pt0 (i 0).val hi0) (1 : Fin 2) * 256 + 256
    omega

/-! ## The two arrays after the region -/

/-- The first output array ends holding the projected rows of the arrays the region found. -/
theorem final0_4 (c : Dev nD) :
    (dat0 V c).arrAt 4 cfg0.N = H0 (V c main_v0) (V c main_v3) (V c main_arg2) :=
  (dat0 V c).arrAt_eq_of_cover 4 _ (fun t _ => flushed0_4_eq V c t) cover0_4

/-- The second output array ends holding the masked projected rows. -/
theorem final0_5 (c : Dev nD) :
    (dat0 V c).arrAt 5 cfg0.N = HM0 (V c main_v0) (V c main_v3) (V c main_arg2) (V c main_v1) :=
  (dat0 V c).arrAt_eq_of_cover 5 _ (fun t _ => flushed0_5_eq V c t) cover0_5

end Cert.KernelIdeal.GcnVal

end
-- ==== Proof.K1.lean ====
/-
  What the combine region leaves in its output array.

  The region's grid has 16 points; at point t every window of 2048 rows sits at rows t*2048 ... t*2048+2047
  of its array, and the gamma and beta windows are their whole arrays. The body's block at (p, q) is the
  normalised row p — residual row plus the aggregated row times the row's mask times 2^-6, normalised, scaled,
  shifted, clamped at 0, times the row's mask — at column q. So point t writes back rows t*2048 ... of ONE
  whole-array function of the arrays the region finds at its entry, and the 16 blocks tile the 32768 rows.
-/
import proofs.«160068_j70334384439537_2_alg».proof.Proof.Payloads
import Idealize.ShloMosaic.Lib.Pipeline.Value

set_option maxRecDepth 16384

noncomputable section

namespace Cert.KernelIdeal.GcnVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Row r of the output: the residual row plus the aggregated row times the row's mask times 2^-6, normalised,
    scaled by the third array, shifted by the fourth, clamped at 0, times the row's mask. -/
def G1 (A0 A1 : S32768x256.Idx → EReal) (A2 A3 : S256.Idx → EReal) (A4 : S32768x1.Idx → BitVec 32) :
    S32768x256.Idx → EReal :=
  fun i => Cert.Gcn.rowOut
    (fun k => A0 (ix2 (i 0) k) + (A1 (ix2 (i 0) k) * (((A4 (ix2 (i 0) (0 : Fin 1))).toInt : ℝ) : EReal)) * Cert.Gcn.c64inv)
    (fun k => A2 (ix1 k)) (fun k => A3 (ix1 k)) (((A4 (ix2 (i 0) (0 : Fin 1))).toInt : ℝ) : EReal) (i 1)

variable (V : (c : Dev nD) → (b : Ref sig .tc) → Buf (Elt Ideal) ((c : Thread nD τ).loc b))

/-- The printed index maps over the 16 grid points: a row window's block index is the point, every other is 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK: block t of the normalised rows. -/
theorem flushed1_5_eq (c : Dev nD) (t : Fin cfg1.N) :
    (dat1 V c).flushed 5 t = ((cfg1.win 5).blk t).view.read (Elt Ideal)
      (G1 (V c main_v4_0) (V c main_v22) (V c main_arg3) (V c main_arg4) (V c main_v1)) := by
  show (cfg1.win 5).cut (grid1.coords t) ((dat1 V c).after 5 t) = _
  rw [after1_5]
  obtain ⟨e00, e01, e10, e11, e20, e30, e40, e41, e50, e51⟩ := idx_facts1 t
  funext j
  obtain ⟨p, q, rfl⟩ : ∃ (p : Fin 2048) (q : Fin 256), j = ix2 p q := ⟨j 0, j 1, eq_ix2 j⟩
  show out1_5 (F := Ideal) (iblk1 V c 0 t) (iblk1 V c 1 t) (iblk1 V c 2 t) (iblk1 V c 3 t) (iblk1 V c 4 t) (ix2 p q)
    = G1 (V c main_v4_0) (V c main_v22) (V c main_arg3) (V c main_arg4) (V c main_v1) (((cfg1.win 5).blk t).view.emb (ix2 p q))
  rw [Cert.Gcn.Pay.out1_5_apply]
  have h0 : ∀ k : Fin 256, ((cfg1.win 0).blk t).view.emb (ix2 p k)
      = ix2 ((((cfg1.win 5).blk t).view.emb (ix2 p q)) 0) k := fun k => by
    funext a; apply Fin.ext
    match a with
    | ⟨0, _⟩ => show win1_0.index t (0 : Fin 2) * 2048 + 1 * p.val = win1_5.index t (0 : Fin 2) * 2048 + 1 * p.val; omega
    | ⟨1, _⟩ => show win1_0.index t (1 : Fin 2) * 256 + 1 * k.val = k.val; omega
  have h1 : ∀ k : Fin 256, ((cfg1.win 1).blk t).view.emb (ix2 p k)
      = ix2 ((((cfg1.win 5).blk t).view.emb (ix2 p q)) 0) k := fun k => by
    funext a; apply Fin.ext
    match a with
    | ⟨0, _⟩ => show win1_1.index t (0 : Fin 2) * 2048 + 1 * p.val = win1_5.index t (0 : Fin 2) * 2048 + 1 * p.val; omega
    | ⟨1, _⟩ => show win1_1.index t (1 : Fin 2) * 256 + 1 * k.val = k.val; omega
  have h2 : ∀ k : Fin 256, ((cfg1.win 2).blk t).view.emb (ix1 k) = ix1 k := fun k => by
    funext a; apply Fin.ext
    match a with
    | ⟨0, _⟩ => show win1_2.index t (0 : Fin 1) * 256 + 1 * k.val = k.val; omega
  have h3 : ∀ k : Fin 256, ((cfg1.win 3).blk t).view.emb (ix1 k) = ix1 k := fun k => by
    funext a; apply Fin.ext
    match a with
    | ⟨0, _⟩ => show win1_3.index t (0 : Fin 1) * 256 + 1 * k.val = k.val; omega
  have h4 : ((cfg1.win 4).blk t).view.emb (ix2 p (0 : Fin 1))
      = ix2 ((((cfg1.win 5).blk t).view.emb (ix2 p q)) 0) (0 : Fin 1) := by
    funext a; apply Fin.ext
    match a with
    | ⟨0, _⟩ => show win1_4.index t (0 : Fin 2) * 2048 + 1 * p.val = win1_5.index t (0 : Fin 2) * 2048 + 1 * p.val; omega
    | ⟨1, _⟩ => show win1_4.index t (1 : Fin 2) * 1 + 1 * 0 = 0; omega
  have hq : (((cfg1.win 5).blk t).view.emb (ix2 p q)) 1 = q := by
    apply Fin.ext
    show win1_5.index t (1 : Fin 2) * 256 + 1 * q.val = q.val; omega
  have r0 : ∀ k : Fin 256, iblk1 V c 0 t (ix2 p k)
      = (V c main_v4_0 : S32768x256.Idx → EReal) (ix2 ((((cfg1.win 5).blk t).view.emb (ix2 p q)) 0) k) := fun k => by
    show (V c main_v4_0 : S32768x256.Idx → EReal) (((cfg1.win 0).blk t).view.emb (ix2 p k)) = _
    rw [h0 k] <;> rfl
  have r1 : ∀ k : Fin 256, iblk1 V c 1 t (ix2 p k)
      = (V c main_v22 : S32768x256.Idx → EReal) (ix2 ((((cfg1.win 5).blk t).view.emb (ix2 p q)) 0) k) := fun k => by
    show (V c main_v22 : S32768x256.Idx → EReal) (((cfg1.win 1).blk t).view.emb (ix2 p k)) = _
    rw [h1 k] <;> rfl
  have r2 : ∀ k : Fin 256, iblk1 V c 2 t (ix1 k) = (V c main_arg3 : S256.Idx → EReal) (ix1 k) := fun k => by
    show (V c main_arg3 : S256.Idx → EReal) (((cfg1.win 2).blk t).view.emb (ix1 k)) = _
    rw [h2 k] <;> rfl
  have r3 : ∀ k : Fin 256, iblk1 V c 3 t (ix1 k) = (V c main_arg4 : S256.Idx → EReal) (ix1 k) := fun k => by
    show (V c main_arg4 : S256.Idx → EReal) (((cfg1.win 3).blk t).view.emb (ix1 k)) = _
    rw [h3 k] <;> rfl
  have r4 : iblk1 V c 4 t (ix2 p (0 : Fin 1))
      = (V c main_v1 : S32768x1.Idx → BitVec 32) (ix2 ((((cfg1.win 5).blk t).view.emb (ix2 p q)) 0) (0 : Fin 1)) := by
    show (V c main_v1 : S32768x1.Idx → BitVec 32) (((cfg1.win 4).blk t).view.emb (ix2 p (0 : Fin 1))) = _
    rw [h4] <;> rfl
  rw [r4]
  simp only [r0, r1, r2, r3]
  show _ = Cert.Gcn.rowOut _ _ _ _ ((((cfg1.win 5).blk t).view.emb (ix2 p q)) 1)
  rw [hq]

/-! ## The blocks tile the array -/

theorem mem_blk1_5 (t : Fin cfg1.N) (i : S32768x256.Idx) :
    i ∈ ((cfg1.win 5).blk t).view.set ↔ ∀ a : Fin 2, win1_5.index t a * S2048x256.size a ≤ (i a).val
      ∧ (i a).val < win1_5.index t a * S2048x256.size a + S2048x256.size a := by
  show i ∈ ((View.whole main_v23).slice (win1_5.rect t)).set ↔ _
  rw [View.set_slice_whole, Rect.mem_set_unit]
  exact Iff.rfl

/-- The point whose block holds row r: r / 2048. -/
def pt1 (r : Nat) (hr : r < 32768) : Fin cfg1.N := ⟨r / 2048, by rw [show cfg1.N = 16 from N_1]; omega⟩

theorem cover1_5 (i : S32768x256.Idx) :
    ∃ t : Fin cfg1.N, (cfg1.win 5).flush t = true ∧ i ∈ ((cfg1.win 5).blk t).view.set := by
  have hi0 : (i 0).val < 32768 := (i 0).isLt
  have hi1 : (i 1).val < 256 := (i 1).isLt
  obtain ⟨e00, e01, e10, e11, e20, e30, e40, e41, e50, e51⟩ := idx_facts1 (pt1 (i 0).val hi0)
  have ht : (pt1 (i 0).val hi0).val = (i 0).val / 2048 := rfl
  refine ⟨pt1 (i 0).val hi0, flush1_5 _, ?_⟩
  rw [mem_blk1_5]
  intro a
  match a with
  | ⟨0, _⟩ =>
    show win1_5.index (pt1 (i 0).val hi0) (0 : Fin 2) * 2048 ≤ (i 0).val
      ∧ (i 0).val < win1_5.index (pt1 (i 0).val hi0) (0 : Fin 2) * 2048 + 2048
    omega
  | ⟨1, _⟩ =>
    show win1_5.index (pt1 (i 0).val hi0) (1 : Fin 2) * 256 ≤ (i 1).val
      ∧ (i 1).val < win1_5.index (pt1 (i 0).val hi0) (1 : Fin 2) * 256 + 256
    omega

/-- The output array ends holding the normalised rows of the arrays the region found. -/
theorem final1_5 (c : Dev nD) :
    (dat1 V c).arrAt 5 cfg1.N = G1 (V c main_v4_0) (V c main_v22) (V c main_arg3) (V c main_arg4) (V c main_v1) :=
  (dat1 V c).arrAt_eq_of_cover 5 _ (fun t _ => flushed1_5_eq V c t) cover1_5

end Cert.KernelIdeal.GcnVal

end
-- ==== Proof.HostMid.lean ====
/-
  The host operations between the two regions, as functions of the masked projected rows and the edge array.

  The edge array [8, 2, 65536] is sliced into sources and targets [8, 65536]. The masked rows, recast as
  [8, 4096, 256], are gathered along the sources (a negative index wrapped by +4096, the gather's start clamped,
  a row kept where the wrapped index lies in [0, 4095] and replaced by the not-a-number word elsewhere). The
  segment word of an edge is its target plus its batch times 4096; flattened over the 524288 edges these index
  an accumulating scatter of the gathered rows into a zero array [32768, 256].
-/
import proofs.«160068_j70334384439537_2_alg».proof.Proof.Gen.KernelIdeal.Frame
import Idealize.ShloMosaic.Lib.StableHlo.Run
import Idealize.ShloMosaic.PureOps.Ideal

set_option maxRecDepth 16384

noncomputable section

namespace Cert.KernelIdeal.GcnVal

open Cert.KernelIdeal Cert.KernelIdeal.Gen
open Idealize.ShloMosaic Idealize.ShloMosaic.TcCoe Idealize.SL.Sem Idealize.ShloMosaic.StableHlo

/-- The edges' sources, [8, 65536]. -/
def srcA (E : IVec S8x2x65536 32) : IVec S8x65536 32 :=
  shapeCast S8x65536 (extractStridedSlice S8x1x65536 ![0, 0, 0] E slices_S8x2x65536_S8x1x65536_0_0_0) shapeCasts_S8x1x65536_S8x65536

/-- The edges' targets, [8, 65536]. -/
def tgtA (E : IVec S8x2x65536 32) : IVec S8x65536 32 :=
  shapeCast S8x65536 (extractStridedSlice S8x1x65536 ![0, 1, 0] E slices_S8x2x65536_S8x1x65536_0_1_0) shapeCasts_S8x1x65536_S8x65536

/-- The segment words, [524288, 1]: target plus batch times 4096. -/
def segA (E : IVec S8x2x65536 32) : IVec S524288x1 32 :=
  broadcastInDim S524288x1 ![0] bcast_S524288_S524288x1_0
    (shapeCast S524288
      (addi (tgtA E)
        (broadcastInDim S8x65536 ![0, 1] bcast_S8x1_S8x65536_0_1
          (muli (broadcastInDim S8x1 ![0] bcast_S8_S8x1_0 (iotaInDim S8 32 0))
            (broadcastInDim S8x1 ![] bcast_S_S8x1 (constantI S_ 32 4096#32)))))
      shapeCasts_S8x65536_S524288)

/-- The sources as the gather's index array, [8, 65536, 1]. -/
def idxA (E : IVec S8x2x65536 32) : IVec S8x65536x1 32 :=
  broadcastInDim S8x65536x1 ![0, 1] bcast_S8x65536_S8x65536x1_0_1 (srcA E)

/-- A negative index wrapped by +4096. -/
def wrapA (E : IVec S8x2x65536 32) : IVec S8x65536x1 32 :=
  select (cmpi .slt (idxA E) (broadcastInDim S8x65536x1 ![] bcast_S_S8x65536x1 (constantI S_ 32 0#32)))
    (addi (idxA E) (broadcastInDim S8x65536x1 ![] bcast_S_S8x65536x1 (constantI S_ 32 4096#32)))
    (idxA E)

/-- Whether the wrapped index lies in [0, 4095], per edge. -/
def okA (E : IVec S8x2x65536 32) : IVec S8x65536 1 :=
  Host.reduce IntOp.andi
    (andi (cmpi .sge (wrapA E) (broadcastInDim S8x65536x1 ![] bcast_S_S8x65536x1 (constantI S_ 32 0#32)))
      (cmpi .sle (wrapA E)
        (broadcastInDim S8x65536x1 ![0, 1, 2] bcast_S1x1x1_S8x65536x1_0_1_2
          (broadcastInDim S1x1x1 ![2] bcast_S1_S1x1x1_2 (constantI S1 32 4095#32)))))
    (constantI S_ 1 1#1) reducesTo_S8x65536x1_S8x65536_d2 h_S_

/-- The gathered rows, [8, 65536, 256]. -/
def msgA (hm : FVec Ideal S32768x256 .f32) (E : IVec S8x2x65536 32) : FVec Ideal S8x65536x256 .f32 :=
  select (broadcastInDim S8x65536x256 ![0, 1] bcast_S8x65536_S8x65536x256_0_1 (okA E))
    (Host.gather gather_S8x4096x256_S8x65536x1_S8x65536x256_2_1_0_0_1_2_11256
      (shapeCast S8x4096x256 hm shapeCasts_S32768x256_S8x4096x256) (wrapA E))
    (broadcastInDim S8x65536x256 ![] bcast_S_S8x65536x256 (constant S_ .f32 0x7FC00000#32))

/-- The aggregated rows, [32768, 256]. -/
def aggOf (hm : FVec Ideal S32768x256 .f32) (E : IVec S8x2x65536 32) : FVec Ideal S32768x256 .f32 :=
  Host.scatterAdd scatter_S32768x256_S524288x1_S524288x256_1_0_0_1
    (broadcastInDim S32768x256 ![] bcast_S_S32768x256 (constant S_ .f32 0x00000000#32))
    (segA E)
    (shapeCast S524288x256 (msgA hm E) shapeCasts_S8x65536x256_S524288x256)

/-! ## Contents at a value's type and at its buffer's type: the transports are identities -/

theorem ofBuf_toBuf {T : BufTy} {Val : EltTy → Type} (x : TRef sig T) (v : T.Contents Val) : x.ofBuf (x.toBuf v) = v := by
  obtain ⟨r, h, a, b⟩ := x
  subst h
  rfl

theorem ofBuf_v10 (h1 h2 h3) (v : main_v10.ty.Contents (Elt Ideal)) :
    (TRef.of main_v10 h1 h2 h3 : TRef sig ⟨S8x65536x1, .i32⟩).ofBuf v = v := rfl

theorem ofBuf_v9 (h1 h2 h3) (v : main_v9.ty.Contents (Elt Ideal)) :
    (TRef.of main_v9 h1 h2 h3 : TRef sig ⟨S8x4096x256, .f32⟩).ofBuf v = v := rfl

theorem toBuf_v11 (h1 h2 h3) (v : (⟨S8x65536x256, .f32⟩ : BufTy).Contents (Elt Ideal)) :
    (TRef.of main_v11 h1 h2 h3 : TRef sig ⟨S8x65536x256, .f32⟩).toBuf v = v := rfl

variable (m : (ℓ : Loc nD τ sig) → Buf (Elt Ideal) ℓ) (ρ : Dev nD → PrngReg)

set_option maxHeartbeats 4000000 in
/-- At the combine region's entry the aggregated array is that function of what the projection region left in
    its second output and of the edge array. -/
theorem W5_agg (c : Dev nD) :
    W5 (F := Ideal) m ρ c (Proc.devRef .tc main_v22)
      = aggOf (W2 m ρ c (Proc.devRef .tc main_v4_1)) (W2 m ρ c (Proc.devRef .tc main_arg5)) := by
  dsimp only [W5, W4, W3]
  generalize W2 m ρ c = V2
  simp only [hostOps1_2, hostOps1_1, hostOps1]
  after_results_simp
  simp only [ofBuf_toBuf, ofBuf_v10, ofBuf_v9, toBuf_v11]
  rfl

end Cert.KernelIdeal.GcnVal

end
-- ==== Proof.KChain.lean ====
/-
  The buffers the kernel program's result depends on, boundary by boundary.

  From the launch memory: the features recast as [32768, 256], the mask recast as a column [32768, 1] and the
  weights transposed enter the projection region, whose two outputs are the projected rows and the masked
  projected rows; the host operations in between write the aggregated rows and touch none of the projected
  rows, the mask column, gamma and beta; the combine region's output is the normalised rows; the last
  operation recasts them as [8, 4096, 256].
-/
import proofs.«160068_j70334384439537_2_alg».proof.Proof.K0
import proofs.«160068_j70334384439537_2_alg».proof.Proof.K1
import proofs.«160068_j70334384439537_2_alg».proof.Proof.HostMid

set_option maxRecDepth 16384

noncomputable section

namespace Cert.KernelIdeal.GcnVal

open Cert.KernelIdeal Cert.KernelIdeal.Gen
open Idealize.ShloMosaic Idealize.ShloMosaic.TcCoe Idealize.SL.Sem Idealize.ShloMosaic.StableHlo
open Idealize.ShloMosaic.Pipeline (Dat Cfg Window)

/-- No operation of the list writes the buffer: decided operation by operation. -/
macro "not_written " ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

variable (m : (ℓ : Loc nD τ sig) → Buf (Elt Ideal) ℓ) (ρ : Dev nD → PrngReg)

/-! ## At the projection region's entry -/

theorem W1_v0 (c : Dev nD) : W1 (F := Ideal) m ρ c (Proc.devRef .tc main_v0)
    = shapeCast S32768x256 (m ((c : Thread nD τ).loc main_arg0)) shapeCasts_S8x4096x256_S32768x256 := by
  show StableHlo.after hostOps0 (W0 m ρ c) (Proc.devRef .tc main_v0) = _
  simp only [hostOps0]
  after_results
  rfl

theorem W1_v1 (c : Dev nD) : W1 (F := Ideal) m ρ c (Proc.devRef .tc main_v1)
    = shapeCast S32768x1 (m ((c : Thread nD τ).loc main_arg6)) shapeCasts_S8x4096_S32768x1 := by
  show StableHlo.after hostOps0 (W0 m ρ c) (Proc.devRef .tc main_v1) = _
  simp only [hostOps0]
  after_results
  rfl

theorem W1_v3 (c : Dev nD) : W1 (F := Ideal) m ρ c (Proc.devRef .tc main_v3)
    = (truncf (F := Ideal) .bf16 (transpose S256x256 [1, 0] (m ((c : Thread nD τ).loc main_arg1) : FVec Ideal S256x256 .f32)
        transposes_S256x256_S256x256_1_0) bitsLt_bf16_f32 : FVec Ideal S256x256 .bf16) := by
  show StableHlo.after hostOps0 (W0 m ρ c) (Proc.devRef .tc main_v3) = _
  simp only [hostOps0]
  after_results

theorem W1_keep (c : Dev nD) (b : Ref sig .tc)
    (hb : ∀ op ∈ (hostOps0 : List (HloOp τ sig (Elt Ideal))), Proc.devRef .tc b ∉ op.writes) :
    W1 (F := Ideal) m ρ c (Proc.devRef .tc b) = m ((c : Thread nD τ).loc b) :=
  StableHlo.after_of_forall_not_mem (b := Proc.devRef .tc b) _ _ hb

theorem W1_arg2 (c : Dev nD) : W1 (F := Ideal) m ρ c (Proc.devRef .tc main_arg2) = m ((c : Thread nD τ).loc main_arg2) :=
  W1_keep m ρ c main_arg2 (by not_written hostOps0)
theorem W1_arg3 (c : Dev nD) : W1 (F := Ideal) m ρ c (Proc.devRef .tc main_arg3) = m ((c : Thread nD τ).loc main_arg3) :=
  W1_keep m ρ c main_arg3 (by not_written hostOps0)
theorem W1_arg4 (c : Dev nD) : W1 (F := Ideal) m ρ c (Proc.devRef .tc main_arg4) = m ((c : Thread nD τ).loc main_arg4) :=
  W1_keep m ρ c main_arg4 (by not_written hostOps0)
theorem W1_arg5 (c : Dev nD) : W1 (F := Ideal) m ρ c (Proc.devRef .tc main_arg5) = m ((c : Thread nD τ).loc main_arg5) :=
  W1_keep m ρ c main_arg5 (by not_written hostOps0)

/-! ## At the projection region's exit -/

theorem W2_v4_0 (c : Dev nD) : W2 (F := Ideal) m ρ c (Proc.devRef .tc main_v4_0)
    = H0 (V1 m ρ c main_v0) (V1 m ρ c main_v3) (V1 m ρ c main_arg2) :=
  (W2_arr m ρ c 4).trans (final0_4 (V1 m ρ) c)

theorem W2_v4_1 (c : Dev nD) : W2 (F := Ideal) m ρ c (Proc.devRef .tc main_v4_1)
    = HM0 (V1 m ρ c main_v0) (V1 m ρ c main_v3) (V1 m ρ c main_arg2) (V1 m ρ c main_v1) :=
  (W2_arr m ρ c 5).trans (final0_5 (V1 m ρ) c)

/-- The mask column is an input window of the region: it leaves as it entered. -/
theorem W2_v1 (c : Dev nD) : W2 (F := Ideal) m ρ c (Proc.devRef .tc main_v1) = W1 m ρ c (Proc.devRef .tc main_v1) :=
  (W2_arr m ρ c 3).trans (((dat0 (V1 m ρ) c).arrAt_in 3 rfl _).trans (A_eq0 (V1 m ρ) c 3))

theorem W2_arg3 (c : Dev nD) : W2 (F := Ideal) m ρ c (Proc.devRef .tc main_arg3) = W1 m ρ c (Proc.devRef .tc main_arg3) :=
  W2_of_ne m ρ c main_arg3 (by decide)
theorem W2_arg4 (c : Dev nD) : W2 (F := Ideal) m ρ c (Proc.devRef .tc main_arg4) = W1 m ρ c (Proc.devRef .tc main_arg4) :=
  W2_of_ne m ρ c main_arg4 (by decide)
theorem W2_arg5 (c : Dev nD) : W2 (F := Ideal) m ρ c (Proc.devRef .tc main_arg5) = W1 m ρ c (Proc.devRef .tc main_arg5) :=
  W2_of_ne m ρ c main_arg5 (by decide)

/-! ## At the combine region's entry: what the host operations in between leave alone -/

theorem W5_keep (c : Dev nD) (b : Ref sig .tc)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes) :
    W5 (F := Ideal) m ρ c (Proc.devRef .tc b) = W2 m ρ c (Proc.devRef .tc b) :=
  (StableHlo.after_of_forall_not_mem (b := Proc.devRef .tc b) _ _ h3).trans
    ((StableHlo.after_of_forall_not_mem (b := Proc.devRef .tc b) _ _ h2).trans
      (StableHlo.after_of_forall_not_mem (b := Proc.devRef .tc b) _ _ h1))

theorem W5_v4_0 (c : Dev nD) : W5 (F := Ideal) m ρ c (Proc.devRef .tc main_v4_0) = W2 m ρ c (Proc.devRef .tc main_v4_0) :=
  W5_keep m ρ c main_v4_0 (by not_written hostOps1) (by not_written hostOps1_1) (by not_written hostOps1_2)
theorem W5_v1 (c : Dev nD) : W5 (F := Ideal) m ρ c (Proc.devRef .tc main_v1) = W2 m ρ c (Proc.devRef .tc main_v1) :=
  W5_keep m ρ c main_v1 (by not_written hostOps1) (by not_written hostOps1_1) (by not_written hostOps1_2)
theorem W5_arg3 (c : Dev nD) : W5 (F := Ideal) m ρ c (Proc.devRef .tc main_arg3) = W2 m ρ c (Proc.devRef .tc main_arg3) :=
  W5_keep m ρ c main_arg3 (by not_written hostOps1) (by not_written hostOps1_1) (by not_written hostOps1_2)
theorem W5_arg4 (c : Dev nD) : W5 (F := Ideal) m ρ c (Proc.devRef .tc main_arg4) = W2 m ρ c (Proc.devRef .tc main_arg4) :=
  W5_keep m ρ c main_arg4 (by not_written hostOps1) (by not_written hostOps1_1) (by not_written hostOps1_2)

/-! ## After the combine region, and the result -/

theorem W6_v23 (c : Dev nD) : W6 (F := Ideal) m ρ c (Proc.devRef .tc main_v23)
    = G1 (V5 m ρ c main_v4_0) (V5 m ρ c main_v22) (V5 m ρ c main_arg3) (V5 m ρ c main_arg4) (V5 m ρ c main_v1) :=
  (W6_arr m ρ c 5).trans (final1_5 (V5 m ρ) c)

theorem W7_v24 (c : Dev nD) : W7 (F := Ideal) m ρ c (Proc.devRef .tc main_v24)
    = shapeCast S8x4096x256 (W6 m ρ c (Proc.devRef .tc main_v23)) shapeCasts_S32768x256_S8x4096x256 := by
  show StableHlo.after hostOps2 (W6 m ρ c) (Proc.devRef .tc main_v24) = _
  generalize W6 m ρ c = V6
  simp only [hostOps2]
  after_results
  rfl

end Cert.KernelIdeal.GcnVal

end
-- ==== Proof.KReads.lean ====
/-
  The arrays the two regions find, read in the specification's terms.

  The layer's features X[b, n, i] enter the projection region as a matrix of 32768 rows, row r = b * 4096 + n; the
  weights W[k, i] enter it transposed, entry (i, k), in a narrower float format, which on the extended reals is
  the same number; the node mask enters both regions as a column of 32768 rows. So the projected rows are the
  specification's projected features of node (r / 4096, r % 4096), the mask column's entry of row r is that
  node's mask, and the layer's output, a matrix of 32768 rows, is read back at (b, n, k) from row b * 4096 + n.
-/
import proofs.«160068_j70334384439537_2_alg».proof.Proof.K0
import proofs.«160068_j70334384439537_2_alg».proof.Proof.K1
import proofs.«160068_j70334384439537_2_alg».proof.Proof.Spec
import Idealize.ShloMosaic.Lib.ValueIdx
import Idealize.ShloMosaic.Lib.Pipeline.Value
import Idealize.ShloMosaic.Lib.ValueLayout

noncomputable section

namespace Cert.KernelIdeal.GcnVal

open Cert.KernelIdeal Cert.KernelIdeal.Gen
open Idealize.ShloMosaic Idealize.ShloMosaic.ValueIdx

/-! ## The layout operations at an entry -/

/-- The features as a matrix of rows, at (r, i): X at node (r / 4096, r % 4096), column i. -/
theorem rows_read (X : FVec Ideal S8x4096x256 .f32) (r : Fin 32768) (i : Fin 256) :
    shapeCast S32768x256 X shapeCasts_S8x4096x256_S32768x256 (ix2 r i) = X (ix3 (Cert.Gcn.bOf r) (Cert.Gcn.nOf r) i) :=
  shapeCast_apply X shapeCasts_S8x4096x256_S32768x256 _ _ (by
    rw [Shape.rowMajor_val_three, Shape.rowMajor_val_two]
    show (r.val / 4096 * 4096 + r.val % 4096) * 256 + i.val = r.val * 256 + i.val
    omega)

/-- The weights transposed and narrowed, at (i, k): W at (k, i). -/
theorem wt_read (W : FVec Ideal S256x256 .f32) (i k : Fin 256) :
    truncf .bf16 (transpose S256x256 [1, 0] W transposes_S256x256_S256x256_1_0) bitsLt_bf16_f32 (ix2 i k) = W (ix2 k i) :=
  (truncf_apply _ bitsLt_bf16_f32 (ix2 i k)).trans (transpose_ix2_apply W transposes_S256x256_S256x256_1_0 i k)

/-- The mask as a column, at (r, u): the mask word of node (r / 4096, r % 4096). -/
theorem maskcol_read (Mk : IVec S8x4096 32) (r : Fin 32768) (u : Fin 1) :
    shapeCast S32768x1 Mk shapeCasts_S8x4096_S32768x1 (ix2 r u) = Mk (ix2 (Cert.Gcn.bOf r) (Cert.Gcn.nOf r)) :=
  shapeCast_apply Mk shapeCasts_S8x4096_S32768x1 _ _ (by
    have hu : u.val = 0 := by omega
    rw [Shape.rowMajor_val_two, Shape.rowMajor_val_two]
    show r.val / 4096 * 4096 + r.val % 4096 = r.val * 1 + u.val
    omega)

/-- The output matrix viewed by batch and node, at (b, n, k): the matrix at row b * 4096 + n, column k. -/
theorem out_read (A : FVec Ideal S32768x256 .f32) (b : Fin 8) (n : Fin 4096) (k : Fin 256) :
    shapeCast S8x4096x256 A shapeCasts_S32768x256_S8x4096x256 (ix3 b n k) = A (ix2 (Cert.Gcn.row b n) k) :=
  shapeCast_apply A shapeCasts_S32768x256_S8x4096x256 _ _ (by
    rw [Shape.rowMajor_val_three, Shape.rowMajor_val_two]
    rfl)

/-! ## The projection region's two arrays -/

/-- The projected rows of the reshaped features and transposed weights: the projected feature of the row's node. -/
theorem H0_read (X : FVec Ideal S8x4096x256 .f32) (W : FVec Ideal S256x256 .f32) (bias : FVec Ideal S256 .f32)
    (r : Fin 32768) (k : Fin 256) :
    H0 (shapeCast S32768x256 X shapeCasts_S8x4096x256_S32768x256)
        (truncf .bf16 (transpose S256x256 [1, 0] W transposes_S256x256_S256x256_1_0) bitsLt_bf16_f32) bias (ix2 r k)
      = Cert.Gcn.lin X W bias (Cert.Gcn.bOf r) (Cert.Gcn.nOf r) k := by
  show (∑ i : Fin 256, shapeCast S32768x256 X shapeCasts_S8x4096x256_S32768x256 (ix2 r i)
        * truncf .bf16 (transpose S256x256 [1, 0] W transposes_S256x256_S256x256_1_0) bitsLt_bf16_f32 (ix2 i k)) + bias (ix1 k)
      = (∑ i : Fin 256, X (ix3 (Cert.Gcn.bOf r) (Cert.Gcn.nOf r) i) * W (ix2 k i)) + bias (ix1 k)
  refine congrArg (· + bias (ix1 k)) (Finset.sum_congr rfl fun i _ => ?_)
  rw [rows_read, wt_read]

/-- The masked projected rows: the projected feature of the row's node times the node's mask. -/
theorem HM0_read (X : FVec Ideal S8x4096x256 .f32) (W : FVec Ideal S256x256 .f32) (bias : FVec Ideal S256 .f32)
    (Mk : IVec S8x4096 32) (r : Fin 32768) (k : Fin 256) :
    HM0 (shapeCast S32768x256 X shapeCasts_S8x4096x256_S32768x256)
        (truncf .bf16 (transpose S256x256 [1, 0] W transposes_S256x256_S256x256_1_0) bitsLt_bf16_f32) bias
        (shapeCast S32768x1 Mk shapeCasts_S8x4096_S32768x1) (ix2 r k)
      = Cert.Gcn.lin X W bias (Cert.Gcn.bOf r) (Cert.Gcn.nOf r) k * Cert.Gcn.nm Mk (Cert.Gcn.bOf r) (Cert.Gcn.nOf r) := by
  show H0 (shapeCast S32768x256 X shapeCasts_S8x4096x256_S32768x256)
        (truncf .bf16 (transpose S256x256 [1, 0] W transposes_S256x256_S256x256_1_0) bitsLt_bf16_f32) bias (ix2 r k)
      * (((shapeCast S32768x1 Mk shapeCasts_S8x4096_S32768x1 (ix2 r (0 : Fin 1))).toInt : ℝ) : EReal) = _
  rw [H0_read, maskcol_read]
  rfl

/-! ## The combine region's array -/

/-- The combine region's rows over the mask column: the row's normalisation with the row's node's mask. -/
theorem G1_read (A0 A1 : FVec Ideal S32768x256 .f32) (gam bet : FVec Ideal S256 .f32) (Mk : IVec S8x4096 32)
    (r : Fin 32768) (k : Fin 256) :
    G1 A0 A1 gam bet (shapeCast S32768x1 Mk shapeCasts_S8x4096_S32768x1) (ix2 r k)
      = Cert.Gcn.rowOut
          (fun j => A0 (ix2 r j) + (A1 (ix2 r j) * Cert.Gcn.nm Mk (Cert.Gcn.bOf r) (Cert.Gcn.nOf r)) * Cert.Gcn.c64inv)
          (fun j => gam (ix1 j)) (fun j => bet (ix1 j)) (Cert.Gcn.nm Mk (Cert.Gcn.bOf r) (Cert.Gcn.nOf r)) k := by
  show Cert.Gcn.rowOut
      (fun j => A0 (ix2 r j) + (A1 (ix2 r j)
        * (((shapeCast S32768x1 Mk shapeCasts_S8x4096_S32768x1 (ix2 r (0 : Fin 1))).toInt : ℝ) : EReal)) * Cert.Gcn.c64inv)
      (fun j => gam (ix1 j)) (fun j => bet (ix1 j))
      (((shapeCast S32768x1 Mk shapeCasts_S8x4096_S32768x1 (ix2 r (0 : Fin 1))).toInt : ℝ) : EReal) k = _
  rw [maskcol_read]
  rfl

end Cert.KernelIdeal.GcnVal

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«160068_j70334384439537_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.LibTakeAlong.lean ====
/-
  Batched reads along an axis (`take_along_axis` on the node axis of a batched array), as StableHLO gathers read at
  an index.

  * rows of a batched matrix: operand [B, N, C], start indices [B, M, 1], result [B, M, C]; result (b, e, k) is the
    operand at batch b, row idx[b, e, 0] — read signed and clamped into [0, N - 1] — and column k;
  * entries of a batched vector: operand [B, N], start indices [B, M, 1], result [B, M]; result (b, e) is the operand
    at batch b and entry idx[b, e, 0], read signed and clamped into [0, N - 1].
-/
import Idealize.ShloMosaic.PureOps.Ideal
import Idealize.ShloMosaic.Lib.ValueIdx

noncomputable section

namespace Cert.TakeAlong

open Idealize.ShloMosaic Idealize.ShloMosaic.ValueIdx

variable {α : Type} {B N M C w : Nat}

/-- The entry a batched read takes for start index `v`: `v` read signed, clamped into `[0, N - 1]`. -/
def clamp (N : Nat) (hN : 0 < N) {w : Nat} (v : BitVec w) : Fin N := ⟨min v.toInt.toNat (N - 1), by omega⟩

/-! ## Rows of a batched matrix -/

/-- `take_along_axis(x, idx[..., None], axis=1)` for `x : [B, N, C]`, `idx : [B, M]` carried as `[B, M, 1]`. -/
abbrev rowsDims3 (B N M C : Nat)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- THE BATCHED ROW READ AT `(b, e, k)`: the operand at batch `b`, row `clamp (idx[b, e, 0])`, column `k`. -/
theorem gather3_apply (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ w) (b : Fin B) (e : Fin M) (k : Fin C) :
    Host.gather (rowsDims3 B N M C wf) x idx (ix3 b e k) = x (ix3 b (clamp N hN (idx (ix3 b e (0 : Fin 1)))) k) := by
  unfold Host.gather
  congr 1
  funext a
  refine Fin.ext ?_
  match a with
  | ⟨0, _⟩ =>
    show (rowsDims3 B N M C wf).start (ix3 b e k) idx 0 + (rowsDims3 B N M C wf).batchCoord (ix3 b e k) 0
      + (rowsDims3 B N M C wf).offCoord (ix3 b e k) 0 = b.val
    rw [GatherDims.start_batching _ _ _ _ (show (0 : Fin 3) ∈ ([0] : List (Fin 3)) from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ ([0] : List (Fin 3)) from List.mem_singleton.mpr rfl)]
    rfl
  | ⟨1, _⟩ =>
    show (rowsDims3 B N M C wf).start (ix3 b e k) idx 1 + (rowsDims3 B N M C wf).batchCoord (ix3 b e k) 1
      + (rowsDims3 B N M C wf).offCoord (ix3 b e k) 1 = _
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims3 B N M C wf).startIndexMap from List.mem_singleton.mpr rfl)]
    have hsi : (rowsDims3 B N M C wf).siIdx (ix3 b e k) ⟨List.idxOf (1 : Fin 3) (rowsDims3 B N M C wf).startIndexMap,
        List.idxOf_lt_length_iff.2 (List.mem_singleton.mpr rfl)⟩ = ix3 b e (0 : Fin 1) := by
      funext c; refine Fin.ext ?_
      match c with
      | ⟨0, _⟩ => rfl
      | ⟨1, _⟩ => rfl
      | ⟨2, _⟩ => rfl
    rw [hsi]
    rfl
  | ⟨2, _⟩ =>
    show (rowsDims3 B N M C wf).start (ix3 b e k) idx 2 + (rowsDims3 B N M C wf).batchCoord (ix3 b e k) 2
      + (rowsDims3 B N M C wf).offCoord (ix3 b e k) 2 = k.val
    rw [GatherDims.batchCoord_eq_zero _ _ _ (show (2 : Fin 3) ∉ ([0] : List (Fin 3)) by decide)]
    unfold GatherDims.start
    rw [dif_neg (show (2 : Fin 3) ∉ ([1] : List (Fin 3)) by decide)]
    simp only [Nat.zero_add, Nat.add_zero]
    unfold GatherDims.offCoord
    rw [dif_pos ((GatherDims.mem_sKept _ _).mpr ⟨(show (2 : Fin 3) ∉ ([1] : List (Fin 3)) by decide),
      (show (2 : Fin 3) ∉ ([0] : List (Fin 3)) by decide)⟩)]
    rfl

/-! ## Entries of a batched vector -/

/-- `take_along_axis(x, idx, axis=1)` for `x : [B, N]`, `idx : [B, M]` carried as `[B, M, 1]`. -/
abbrev rowsDims2 (B N M : Nat)
    (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

/-- THE BATCHED ENTRY READ AT `(b, e)`: the operand at batch `b`, entry `clamp (idx[b, e, 0])`. -/
theorem gather2_apply (hN : 0 < N)
    (wf : GatherDims.WF ⟨2, ![B, N]⟩ ⟨3, ![B, M, 1]⟩ ⟨2, ![B, M]⟩ [] [1] [0] [1] [0] 2 ![1, 1])
    (x : (⟨2, ![B, N]⟩ : Shape).Idx → α) (idx : IVec ⟨3, ![B, M, 1]⟩ w) (b : Fin B) (e : Fin M) :
    Host.gather (rowsDims2 B N M wf) x idx (ix2 b e) = x (ix2 b (clamp N hN (idx (ix3 b e (0 : Fin 1))))) := by
  unfold Host.gather
  congr 1
  funext a
  refine Fin.ext ?_
  match a with
  | ⟨0, _⟩ =>
    show (rowsDims2 B N M wf).start (ix2 b e) idx 0 + (rowsDims2 B N M wf).batchCoord (ix2 b e) 0
      + (rowsDims2 B N M wf).offCoord (ix2 b e) 0 = b.val
    rw [GatherDims.start_batching _ _ _ _ (show (0 : Fin 2) ∈ ([0] : List (Fin 2)) from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ ([0] : List (Fin 2)) from List.mem_singleton.mpr rfl)]
    rfl
  | ⟨1, _⟩ =>
    show (rowsDims2 B N M wf).start (ix2 b e) idx 1 + (rowsDims2 B N M wf).batchCoord (ix2 b e) 1
      + (rowsDims2 B N M wf).offCoord (ix2 b e) 1 = _
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowsDims2 B N M wf).startIndexMap from List.mem_singleton.mpr rfl)]
    have hsi : (rowsDims2 B N M wf).siIdx (ix2 b e) ⟨List.idxOf (1 : Fin 2) (rowsDims2 B N M wf).startIndexMap,
        List.idxOf_lt_length_iff.2 (List.mem_singleton.mpr rfl)⟩ = ix3 b e (0 : Fin 1) := by
      funext c; refine Fin.ext ?_
      match c with
      | ⟨0, _⟩ => rfl
      | ⟨1, _⟩ => rfl
      | ⟨2, _⟩ => rfl
    rw [hsi]
    rfl

end Cert.TakeAlong

end
-- ==== Proof.LibEdgeRead.lean ====
/-
  The layout operations around a batched edge gather and a flat segment scatter, read at coordinates.

  Edges are addressed as (batch b, edge e) or by the flat edge e' = b * 65536 + e, rows as (batch b, node n) or by
  the flat row r = b * 4096 + n. Each lemma reads ONE layout operation (or one short chain of them) of the literal
  shapes [8, 2, 65536], [8, 65536], [8, 65536, 1], [8, 65536, 256], [524288], [524288, 1], [524288, 256],
  [32768, 256], [8, 4096, 256] at an index given by its coordinates, whatever proofs of the operations' side
  conditions the program at hand carries:

  * the source / target plane of the edge array, [8, 2, 65536] sliced and recast to [8, 65536];
  * a per-edge array carried to [8, 65536, 1] or repeated along 256 columns;
  * a scalar repeated over any shape, and a one-element vector repeated over [8, 65536, 1];
  * the segment words: target + batch * 4096, flattened over the 524288 edges and carried as [524288, 1];
  * the rows [32768, 256] recast as [8, 4096, 256], and the edge rows [8, 65536, 256] recast as [524288, 256];
  * the integer vector operations at an index.
-/
import Idealize.ShloMosaic.PureOps.Ideal
import Idealize.ShloMosaic.PureOps.Ideal.Laws
import Idealize.ShloMosaic.Lib.ValueIdx
import Idealize.ShloMosaic.Lib.Pipeline.Value
import proofs.«160068_j70334384439537_2_alg».proof.Proof.Spec

noncomputable section

namespace Cert.EdgeRead

open Idealize.ShloMosaic Idealize.ShloMosaic.ValueIdx Cert.Gcn

/-! ## The integer vector operations at an index -/

section Pointwise
variable {s : Shape} {w : Nat}

theorem addi_apply (x y : IVec s w) (i : s.Idx) : addi x y i = IntOp.addi (x i) (y i) := rfl
theorem muli_apply (x y : IVec s w) (i : s.Idx) : muli x y i = IntOp.muli (x i) (y i) := rfl
theorem andi_apply (x y : IVec s w) (i : s.Idx) : andi x y i = IntOp.andi (x i) (y i) := rfl
theorem cmpi_apply (p : CmpIPredicate) (x y : IVec s w) (i : s.Idx) : cmpi p x y i = IntOp.cmpi p (x i) (y i) := rfl

end Pointwise

/-! ## Scalars and one-element vectors repeated -/

/-- A scalar repeated over any shape, read anywhere: the scalar. -/
theorem bcast_scalar_apply {t : Shape} {α : Type} (h : (⟨0, ![]⟩ : Shape).BroadcastsInDim t ![])
    (x : (⟨0, ![]⟩ : Shape).Idx → α) (i : t.Idx) : broadcastInDim t ![] h x i = x ix0 :=
  broadcastInDim_apply _ h x i ix0 (fun a => a.elim0)

/-- The zero word repeated over any shape is the zero array of extended reals. -/
theorem bcast_zero {t : Shape} (h : (⟨0, ![]⟩ : Shape).BroadcastsInDim t ![]) :
    broadcastInDim t ![] h (constant (F := Ideal) ⟨0, ![]⟩ .f32 0x00000000#32) = fun _ => 0 := by
  funext i
  rw [bcast_scalar_apply, constant_apply]
  exact Ideal.ofBits_zero_f32

/-- A one-element vector carried to [1, 1, 1] and repeated over [8, 65536, 1], read anywhere: its element. -/
theorem bcast_unit_apply {α : Type} (x : (⟨1, ![1]⟩ : Shape).Idx → α)
    (h2 : (⟨1, ![1]⟩ : Shape).BroadcastsInDim ⟨3, ![1, 1, 1]⟩ ![2])
    (h1 : (⟨3, ![1, 1, 1]⟩ : Shape).BroadcastsInDim ⟨3, ![8, 65536, 1]⟩ ![0, 1, 2])
    (i : (⟨3, ![8, 65536, 1]⟩ : Shape).Idx) :
    broadcastInDim ⟨3, ![8, 65536, 1]⟩ ![0, 1, 2] h1 (broadcastInDim ⟨3, ![1, 1, 1]⟩ ![2] h2 x) i = x (ix1 (0 : Fin 1)) := by
  rw [broadcastInDim_apply _ h1 _ i (ix3 (0 : Fin 1) (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl])]
  exact broadcastInDim_apply _ h2 x _ (ix1 (0 : Fin 1)) (fun a => match a with
    | ⟨0, _⟩ => by show 0 = if (1 : Nat) = 1 then 0 else _; rw [if_pos rfl])

/-! ## The planes of the edge array -/

/-- The source plane: [8, 2, 65536] sliced at [:, 0:1, :] and recast to [8, 65536], read at (b, e). -/
theorem slice_src_apply {w : Nat} (E : IVec ⟨3, ![8, 2, 65536]⟩ w)
    (hs : (⟨3, ![8, 2, 65536]⟩ : Shape).Slices ![0, 0, 0] ⟨3, ![8, 1, 65536]⟩)
    (hc : (⟨3, ![8, 1, 65536]⟩ : Shape).ShapeCasts ⟨2, ![8, 65536]⟩) (b : Fin 8) (e : Fin 65536) :
    shapeCast ⟨2, ![8, 65536]⟩ (extractStridedSlice ⟨3, ![8, 1, 65536]⟩ ![0, 0, 0] E hs) hc (ix2 b e)
      = E (ix3 b (0 : Fin 2) e) := by
  have hb := b.isLt
  have he := e.isLt
  rw [shapeCast_apply _ hc (ix2 b e) (ix3 b (0 : Fin 1) e) (by
    rw [Shape.rowMajor_val_three, Shape.rowMajor_val_two]
    show (b.val * 1 + 0) * 65536 + e.val = b.val * 65536 + e.val
    omega)]
  exact extractStridedSlice_apply ![0, 0, 0] E hs (ix3 b (0 : Fin 1) e) (ix3 b (0 : Fin 2) e) (fun a => match a with
    | ⟨0, _⟩ => by show b.val = 0 + b.val; omega
    | ⟨1, _⟩ => by show 0 = 0 + 0; rfl
    | ⟨2, _⟩ => by show e.val = 0 + e.val; omega)

/-- The target plane: [8, 2, 65536] sliced at [:, 1:2, :] and recast to [8, 65536], read at (b, e). -/
theorem slice_tgt_apply {w : Nat} (E : IVec ⟨3, ![8, 2, 65536]⟩ w)
    (hs : (⟨3, ![8, 2, 65536]⟩ : Shape).Slices ![0, 1, 0] ⟨3, ![8, 1, 65536]⟩)
    (hc : (⟨3, ![8, 1, 65536]⟩ : Shape).ShapeCasts ⟨2, ![8, 65536]⟩) (b : Fin 8) (e : Fin 65536) :
    shapeCast ⟨2, ![8, 65536]⟩ (extractStridedSlice ⟨3, ![8, 1, 65536]⟩ ![0, 1, 0] E hs) hc (ix2 b e)
      = E (ix3 b (1 : Fin 2) e) := by
  have hb := b.isLt
  have he := e.isLt
  rw [shapeCast_apply _ hc (ix2 b e) (ix3 b (0 : Fin 1) e) (by
    rw [Shape.rowMajor_val_three, Shape.rowMajor_val_two]
    show (b.val * 1 + 0) * 65536 + e.val = b.val * 65536 + e.val
    omega)]
  exact extractStridedSlice_apply ![0, 1, 0] E hs (ix3 b (0 : Fin 1) e) (ix3 b (1 : Fin 2) e) (fun a => match a with
    | ⟨0, _⟩ => by show b.val = 0 + b.val; omega
    | ⟨1, _⟩ => by show 1 = 1 + 0; rfl
    | ⟨2, _⟩ => by show e.val = 0 + e.val; omega)

/-! ## Per-edge arrays carried along a new axis -/

/-- A per-edge array carried as [8, 65536, 1], read at (b, e, 0). -/
theorem bcast_col_apply {α : Type} (x : (⟨2, ![8, 65536]⟩ : Shape).Idx → α)
    (h : (⟨2, ![8, 65536]⟩ : Shape).BroadcastsInDim ⟨3, ![8, 65536, 1]⟩ ![0, 1]) (b : Fin 8) (e : Fin 65536) (z : Fin 1) :
    broadcastInDim ⟨3, ![8, 65536, 1]⟩ ![0, 1] h x (ix3 b e z) = x (ix2 b e) :=
  broadcastInDim_apply _ h x (ix3 b e z) (ix2 b e) (fun a => match a with
    | ⟨0, _⟩ => by show b.val = if (8 : Nat) = 1 then 0 else b.val; rw [if_neg (by decide)]
    | ⟨1, _⟩ => by show e.val = if (65536 : Nat) = 1 then 0 else e.val; rw [if_neg (by decide)])

/-- A per-edge array repeated along 256 columns, read at (b, e, k). -/
theorem bcast_edge_apply {α : Type} (x : (⟨2, ![8, 65536]⟩ : Shape).Idx → α)
    (h : (⟨2, ![8, 65536]⟩ : Shape).BroadcastsInDim ⟨3, ![8, 65536, 256]⟩ ![0, 1]) (b : Fin 8) (e : Fin 65536) (k : Fin 256) :
    broadcastInDim ⟨3, ![8, 65536, 256]⟩ ![0, 1] h x (ix3 b e k) = x (ix2 b e) :=
  broadcastInDim_apply _ h x (ix3 b e k) (ix2 b e) (fun a => match a with
    | ⟨0, _⟩ => by show b.val = if (8 : Nat) = 1 then 0 else b.val; rw [if_neg (by decide)]
    | ⟨1, _⟩ => by show e.val = if (65536 : Nat) = 1 then 0 else e.val; rw [if_neg (by decide)])

/-! ## The segment words -/

/-- Target plus batch times 4096, flattened over the edges and carried as [524288, 1], read at (e', 0): the target
    word of edge e' plus its batch times 4096, in 32-bit arithmetic. -/
theorem seg_apply (T : IVec ⟨2, ![8, 65536]⟩ 32)
    (h1 : (⟨1, ![524288]⟩ : Shape).BroadcastsInDim ⟨2, ![524288, 1]⟩ ![0])
    (hc : (⟨2, ![8, 65536]⟩ : Shape).ShapeCasts ⟨1, ![524288]⟩)
    (h2 : (⟨2, ![8, 1]⟩ : Shape).BroadcastsInDim ⟨2, ![8, 65536]⟩ ![0, 1])
    (h3 : (⟨1, ![8]⟩ : Shape).BroadcastsInDim ⟨2, ![8, 1]⟩ ![0])
    (h4 : (⟨0, ![]⟩ : Shape).BroadcastsInDim ⟨2, ![8, 1]⟩ ![]) (e : Fin 524288) :
    broadcastInDim ⟨2, ![524288, 1]⟩ ![0] h1
        (shapeCast ⟨1, ![524288]⟩
          (addi T
            (broadcastInDim ⟨2, ![8, 65536]⟩ ![0, 1] h2
              (muli (broadcastInDim ⟨2, ![8, 1]⟩ ![0] h3 (iotaInDim ⟨1, ![8]⟩ 32 0))
                (broadcastInDim ⟨2, ![8, 1]⟩ ![] h4 (constantI ⟨0, ![]⟩ 32 4096#32)))))
          hc) (ix2 e (0 : Fin 1))
      = T (ix2 (eB e) (eE e)) + BitVec.ofNat 32 (eB e).val * 4096#32 := by
  have he := e.isLt
  rw [broadcastInDim_apply _ h1 _ (ix2 e (0 : Fin 1)) (ix1 e) (fun a => match a with
      | ⟨0, _⟩ => by show e.val = if (524288 : Nat) = 1 then 0 else e.val; rw [if_neg (by decide)]),
    shapeCast_apply _ hc (ix1 e) (ix2 (eB e) (eE e)) (by
      rw [Shape.rowMajor_val_two, Shape.rowMajor_val_one]
      show e.val / 65536 * 65536 + e.val % 65536 = e.val
      omega),
    addi_apply,
    broadcastInDim_apply _ h2 _ (ix2 (eB e) (eE e)) (ix2 (eB e) (0 : Fin 1)) (fun a => match a with
      | ⟨0, _⟩ => by show e.val / 65536 = if (8 : Nat) = 1 then 0 else e.val / 65536; rw [if_neg (by decide)]
      | ⟨1, _⟩ => by show 0 = if (1 : Nat) = 1 then 0 else _; rw [if_pos rfl]),
    muli_apply,
    broadcastInDim_apply _ h3 _ (ix2 (eB e) (0 : Fin 1)) (ix1 (eB e)) (fun a => match a with
      | ⟨0, _⟩ => by show e.val / 65536 = if (8 : Nat) = 1 then 0 else e.val / 65536; rw [if_neg (by decide)]),
    bcast_scalar_apply]
  rfl

/-! ## The two recasts -/

/-- The rows [32768, 256] recast as [8, 4096, 256], read at (b, n, k): row b * 4096 + n, column k. -/
theorem cast_rows_apply {α : Type} (x : (⟨2, ![32768, 256]⟩ : Shape).Idx → α)
    (hc : (⟨2, ![32768, 256]⟩ : Shape).ShapeCasts ⟨3, ![8, 4096, 256]⟩) (b : Fin 8) (n : Fin 4096) (k : Fin 256) :
    shapeCast ⟨3, ![8, 4096, 256]⟩ x hc (ix3 b n k) = x (ix2 (row b n) k) :=
  shapeCast_apply x hc (ix3 b n k) (ix2 (row b n) k) (by
    rw [Shape.rowMajor_val_two, Shape.rowMajor_val_three]
    show (b.val * 4096 + n.val) * 256 + k.val = (b.val * 4096 + n.val) * 256 + k.val
    rfl)

/-- The edge rows [8, 65536, 256] recast as [524288, 256], read at (e', k): edge (e' / 65536, e' % 65536), column k. -/
theorem cast_edges_apply {α : Type} (x : (⟨3, ![8, 65536, 256]⟩ : Shape).Idx → α)
    (hc : (⟨3, ![8, 65536, 256]⟩ : Shape).ShapeCasts ⟨2, ![524288, 256]⟩) (e : Fin 524288) (k : Fin 256) :
    shapeCast ⟨2, ![524288, 256]⟩ x hc (ix2 e k) = x (ix3 (eB e) (eE e) k) := by
  have he := e.isLt
  have hk := k.isLt
  exact shapeCast_apply x hc (ix2 e k) (ix3 (eB e) (eE e) k) (by
    rw [Shape.rowMajor_val_three, Shape.rowMajor_val_two]
    show (e.val / 65536 * 65536 + e.val % 65536) * 256 + k.val = e.val * 256 + k.val
    omega)

end Cert.EdgeRead

end
-- ==== Proof.RefOps.lean ====
/-
  Small general facts used to read the reference program: words and conjunctions (a bounds-checked read along an
  axis whose index is known to be in range), the signed integer read as a real, the clamp of a node index, and
  the accumulating row scatter of the host into zeros under whatever names its record and operands go by.

  * a conjunction over an axis whose every term is 1 is 1;
  * a non-negative 32-bit index is not wrapped: `select (w < 0) (w + 4096) w = w`;
  * an index in [0, 4095] passes the bounds test `0 ≤ w ∧ w ≤ 4095`;
  * a signed 32-bit integer converted to a float is, on the extended reals, that integer;
  * clamping a start index into [0, 4096 - 1] names the node `node` does;
  * the host's accumulating scatter of rows into zeros, read at (r, k): the sum of column k of the update rows whose
    index, read signed, is r.
-/
import Idealize.ShloMosaic.Lib.ValueIdx
import Idealize.ShloMosaic.Lib.Affine
import Idealize.ShloMosaic.PureOps.Reduce
import Idealize.ShloMosaic.PureOps.Ideal.Laws
import proofs.«160068_j70334384439537_2_alg».proof.Proof.Spec
import proofs.«160068_j70334384439537_2_alg».proof.Proof.LibGraphMean
import proofs.«160068_j70334384439537_2_alg».proof.Proof.LibTakeAlong

noncomputable section

namespace Cert.Gcn.Ref

open Idealize.ShloMosaic Idealize.ShloMosaic.ValueIdx

/-! ## A conjunction of ones -/

theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- A reduction by `and` from 1 over an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-! ## Words -/

theorem toInt_zero32 : (0#32 : BitVec 32).toInt = 0 := by decide
theorem toInt_4095 : (4095#32 : BitVec 32).toInt = 4095 := by decide

/-- A non-negative index is not wrapped. -/
theorem wrap_id (w : BitVec 32) (h : 0 ≤ w.toInt) :
    Scalar.select (IntOp.cmpi .slt w 0#32) (IntOp.addi w 4096#32) w = w := by
  have hc : IntOp.cmpi .slt w 0#32 = 0#1 := eq_zero_of_ne_one (fun hc => by
    have h1 := IntOp.cmpi_slt.mp hc
    rw [toInt_zero32] at h1
    omega)
  rw [hc, select_zero]

/-- An index in [0, 4095] passes the bounds test. -/
theorem inb_one (w : BitVec 32) (h0 : 0 ≤ w.toInt) (h1 : w.toInt < 4096) :
    IntOp.andi (IntOp.cmpi .sge w 0#32) (IntOp.cmpi .sle w 4095#32) = 1#1 := by
  refine IntOp.andi_eq_one.mpr ⟨IntOp.cmpi_sge.mpr ?_, IntOp.cmpi_sle.mpr ?_⟩
  · rw [toInt_zero32]; exact h0
  · rw [toInt_4095]; omega

/-! ## The integer read as a real, and the clamp -/

theorem sitofp_eq (w : BitVec 32) : FloatOps.sitofp (F := Ideal) .f32 w = ((w.toInt : ℝ) : EReal) := rfl

theorem clamp_node (h : 0 < 4096) (v : BitVec 32) : Cert.TakeAlong.clamp 4096 h v = Cert.Gcn.node v := rfl

/-! ## The host's accumulating row scatter -/

/-- An accumulating row scatter into zeros, for the host's operation, whatever the names its record, its operand and
    its updates go by: at `(r, k)` the sum of column `k` of the update rows that land on row `r`. -/
theorem host_rows_apply {N M C w : Nat} (d : ScatterDims ⟨2, ![N, C]⟩ ⟨2, ![M, 1]⟩ ⟨2, ![M, C]⟩)
    (wf : ScatterDims.WF ⟨2, ![N, C]⟩ ⟨2, ![M, 1]⟩ ⟨2, ![M, C]⟩ [1] [0] [0] 1)
    (hd : d = Cert.ScatterGather.rowsScatter N M C wf)
    (Z : FVec Ideal ⟨2, ![N, C]⟩ .f32) (hZ : Z = fun _ => 0) (idx : IVec ⟨2, ![M, 1]⟩ w)
    (U : FVec Ideal ⟨2, ![M, C]⟩ .f32) (r : Fin N) (k : Fin C) :
    Host.scatterAdd (F := Ideal) d Z idx U (ix2 r k) = ∑ e ∈ Cert.GraphMean.landing idx r, U (ix2 e k) := by
  subst hd hZ
  exact Cert.GraphMean.scatter_rows_apply wf idx U r k

end Cert.Gcn.Ref

end
-- ==== Proof.HostMidRead.lean ====
/-
  The aggregated rows between the two regions, read at an index, when every edge index lies in [0, 4096).

  The masked rows hm [32768, 256], recast as [8, 4096, 256], are gathered along the edges' sources. Under the range
  hypothesis a source word is not wrapped, passes the bounds test, and names the node `node` does, so the gathered
  row of edge (b, e) is row b * 4096 + node(source) of hm. The segment word of the flat edge e' is segW E e', so the
  accumulating scatter into zeros has, at row r and column k, the sum over the edges that land on r of column k of
  the row they gathered.
-/
import proofs.«160068_j70334384439537_2_alg».proof.Proof.HostMid
import proofs.«160068_j70334384439537_2_alg».proof.Proof.Spec
import proofs.«160068_j70334384439537_2_alg».proof.Proof.LibGraphMean
import proofs.«160068_j70334384439537_2_alg».proof.Proof.LibTakeAlong
import proofs.«160068_j70334384439537_2_alg».proof.Proof.LibEdgeRead
import proofs.«160068_j70334384439537_2_alg».proof.Proof.RefOps
import Idealize.ShloMosaic.Lib.ValueIdx

noncomputable section

namespace Cert.KernelIdeal.GcnVal

open Cert.KernelIdeal Cert.KernelIdeal.Gen
open Idealize.ShloMosaic Idealize.ShloMosaic.ValueIdx
open Cert.Gcn Cert.Gcn.Ref Cert.EdgeRead

/-! ## The program's gather and scatter records are the general ones -/

theorem featDims_eq : gather_S8x4096x256_S8x65536x1_S8x65536x256_2_1_0_0_1_2_11256
    = Cert.TakeAlong.rowsDims3 8 4096 65536 256 gather_S8x4096x256_S8x65536x1_S8x65536x256_2_1_0_0_1_2_11256_wf := rfl

theorem aggDims_eq : scatter_S32768x256_S524288x1_S524288x256_1_0_0_1
    = Cert.ScatterGather.rowsScatter 32768 524288 256 scatter_S32768x256_S524288x1_S524288x256_1_0_0_1_wf := rfl

section Arrays

variable (hm : FVec Ideal S32768x256 .f32) (E : IVec S8x2x65536 32)

/-! ## Sources, targets, segment words -/

theorem srcA_apply (b : Fin 8) (e : Fin 65536) : srcA E (ix2 b e) = E (ix3 b (0 : Fin 2) e) := by
  unfold srcA
  rw [slice_src_apply]

theorem tgtA_apply (b : Fin 8) (e : Fin 65536) : tgtA E (ix2 b e) = E (ix3 b (1 : Fin 2) e) := by
  unfold tgtA
  rw [slice_tgt_apply]

theorem segA_apply (e : Fin 524288) : segA E (ix2 e (0 : Fin 1)) = segW E e := by
  unfold segA
  rw [seg_apply, tgtA_apply]
  rfl

/-! ## The index array: not wrapped, within bounds -/

theorem idxA_apply (b : Fin 8) (e : Fin 65536) (z : Fin 1) : idxA E (ix3 b e z) = E (ix3 b (0 : Fin 2) e) := by
  unfold idxA
  rw [bcast_col_apply, srcA_apply]

theorem idxA_range (hE : InRange E) (i : S8x65536x1.Idx) : 0 ≤ (idxA E i).toInt ∧ (idxA E i).toInt < 4096 := by
  obtain ⟨b, e, z, rfl⟩ : ∃ (b : Fin 8) (e : Fin 65536) (z : Fin 1), i = ix3 b e z := ⟨i 0, i 1, i 2, eq_ix3 i⟩
  rw [idxA_apply]
  exact hE _

theorem wrapA_eq (hE : InRange E) (i : S8x65536x1.Idx) : wrapA E i = idxA E i := by
  unfold wrapA
  rw [select_apply, cmpi_apply, addi_apply, bcast_scalar_apply, bcast_scalar_apply]
  exact wrap_id _ (idxA_range E hE i).1

theorem okA_one (hE : InRange E) (j : S8x65536.Idx) : okA E j = 1#1 := by
  unfold okA
  refine reduce_andi_one _ _ _ _ (fun i => ?_) (fun _ => rfl) j
  rw [andi_apply, cmpi_apply, cmpi_apply, wrapA_eq E hE, bcast_scalar_apply, bcast_unit_apply]
  exact inb_one _ (idxA_range E hE i).1 (idxA_range E hE i).2

/-! ## The gathered rows -/

theorem msgA_apply (hE : InRange E) (b : Fin 8) (e : Fin 65536) (k : Fin 256) :
    msgA hm E (ix3 b e k) = hm (ix2 (row b (node (E (ix3 b (0 : Fin 2) e)))) k) := by
  unfold msgA
  rw [select_apply, bcast_edge_apply, okA_one E hE, select_one, featDims_eq,
    Cert.TakeAlong.gather3_apply (by decide : 0 < 4096), clamp_node, wrapA_eq E hE, idxA_apply, cast_rows_apply]

/-! ## The aggregated rows -/

/-- THE AGGREGATED ROWS READ AT (r, k): the sum, over the edges that land on row r, of column k of the row of hm at
    the edge's batch and source node. -/
theorem aggOf_apply (hE : InRange E) (r : Fin 32768) (k : Fin 256) :
    aggOf hm E (ix2 r k) = ∑ e ∈ lands E r, hm (ix2 (row (eB e) (srcN E e)) k) := by
  unfold aggOf
  rw [host_rows_apply _ scatter_S32768x256_S524288x1_S524288x256_1_0_0_1_wf aggDims_eq _ (bcast_zero _)]
  have hl : Cert.GraphMean.landing (segA E) r = lands E r := by
    unfold Cert.GraphMean.landing lands
    exact Finset.filter_congr fun e _ => by rw [segA_apply]
  rw [hl]
  refine Finset.sum_congr rfl fun e _ => ?_
  rw [cast_edges_apply, msgA_apply hm E hE]
  rfl

end Arrays

end Cert.KernelIdeal.GcnVal

end
-- ==== Proof.KFinal.lean ====
/-
  The kernel program's result array is arrangement K of the layer.

  Reading the chain of buffers backwards from the result: the result at (b, n, k) is row b*4096+n, column k, of
  the combine region's output, which normalises the row "projected row plus aggregated row times the row's
  mask times 2^-6"; the projected row of flat row r is the projection of node (r / 4096, r % 4096); the
  aggregated row sums, over the edges landing on r, the masked projected row of the edge's source.
-/
import proofs.«160068_j70334384439537_2_alg».proof.Proof.KChain
import proofs.«160068_j70334384439537_2_alg».proof.Proof.KReads
import proofs.«160068_j70334384439537_2_alg».proof.Proof.HostMidRead

set_option maxRecDepth 16384

noncomputable section

namespace Cert.KernelIdeal.GcnVal

open Cert.KernelIdeal Cert.KernelIdeal.Gen
open Idealize.ShloMosaic Idealize.ShloMosaic.TcCoe Idealize.ShloMosaic.ValueIdx Idealize.SL.Sem
open Cert.Gcn (row bOf nOf bOf_row nOf_row lin nm msgK h2K GK rowOut lands eB srcN InRange c64inv)

/-- The whole chain over variable arrays: the normalised rows of (projected rows, aggregated masked projected rows),
    recast as [8, 4096, 256], are arrangement K. -/
theorem chain_eq (X : FVec Ideal S8x4096x256 .f32) (W : FVec Ideal S256x256 .f32) (bias gam bet : FVec Ideal S256 .f32)
    (E : IVec S8x2x65536 32) (Mk : IVec S8x4096 32) (hE : InRange E) :
    shapeCast S8x4096x256
      (G1 (H0 (shapeCast S32768x256 X shapeCasts_S8x4096x256_S32768x256)
              (truncf .bf16 (transpose S256x256 [1, 0] W transposes_S256x256_S256x256_1_0) bitsLt_bf16_f32) bias)
          (aggOf (HM0 (shapeCast S32768x256 X shapeCasts_S8x4096x256_S32768x256)
              (truncf .bf16 (transpose S256x256 [1, 0] W transposes_S256x256_S256x256_1_0) bitsLt_bf16_f32) bias
              (shapeCast S32768x1 Mk shapeCasts_S8x4096_S32768x1)) E)
          gam bet (shapeCast S32768x1 Mk shapeCasts_S8x4096_S32768x1))
      shapeCasts_S32768x256_S8x4096x256
    = GK X W bias gam bet E Mk := by
  funext i
  obtain ⟨b, n, k, rfl⟩ : ∃ (b : Fin 8) (n : Fin 4096) (k : Fin 256), i = ix3 b n k := ⟨i 0, i 1, i 2, eq_ix3 i⟩
  rw [out_read, G1_read]
  unfold GK
  rw [bOf_row, nOf_row]
  refine congrArg (fun f => rowOut f (fun j => gam (ix1 j)) (fun j => bet (ix1 j)) (nm Mk b n) k) (funext fun j => ?_)
  unfold h2K
  rw [bOf_row, nOf_row, H0_read, bOf_row, nOf_row, aggOf_apply _ _ hE]
  refine congrArg (fun z => lin X W bias b n j + (z * nm Mk b n) * c64inv) (Finset.sum_congr rfl fun e _ => ?_)
  rw [HM0_read, bOf_row, nOf_row]
  rfl

variable (m : (ℓ : Loc nD τ sig) → Buf (Elt Ideal) ℓ) (ρ : Dev nD → PrngReg)

/-- THE KERNEL PROGRAM'S RESULT. -/
theorem W7_result (c : Dev nD) (hE : InRange (m ((c : Thread nD τ).loc main_arg5))) :
    W7 (F := Ideal) m ρ c (Proc.devRef .tc main_v24)
      = GK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e0 : V5 m ρ c main_v4_0 = H0 (V1 m ρ c main_v0) (V1 m ρ c main_v3) (V1 m ρ c main_arg2) :=
    (W5_v4_0 m ρ c).trans (W2_v4_0 m ρ c)
  have e1 : V5 m ρ c main_v1 = shapeCast S32768x1 (m ((c : Thread nD τ).loc main_arg6)) shapeCasts_S8x4096_S32768x1 :=
    (W5_v1 m ρ c).trans ((W2_v1 m ρ c).trans (W1_v1 m ρ c))
  have e3 : V5 m ρ c main_arg3 = m ((c : Thread nD τ).loc main_arg3) :=
    (W5_arg3 m ρ c).trans ((W2_arg3 m ρ c).trans (W1_arg3 m ρ c))
  have e4 : V5 m ρ c main_arg4 = m ((c : Thread nD τ).loc main_arg4) :=
    (W5_arg4 m ρ c).trans ((W2_arg4 m ρ c).trans (W1_arg4 m ρ c))
  have e5 : W2 m ρ c (Proc.devRef .tc main_arg5) = m ((c : Thread nD τ).loc main_arg5) :=
    (W2_arg5 m ρ c).trans (W1_arg5 m ρ c)
  have e22 : V5 m ρ c main_v22 = aggOf (HM0 (V1 m ρ c main_v0) (V1 m ρ c main_v3) (V1 m ρ c main_arg2) (V1 m ρ c main_v1))
      (m ((c : Thread nD τ).loc main_arg5)) := by
    have h := W5_agg m ρ c
    rw [W2_v4_1, e5] at h
    exact h
  have v0 : V1 m ρ c main_v0 = shapeCast S32768x256 (m ((c : Thread nD τ).loc main_arg0)) shapeCasts_S8x4096x256_S32768x256 := W1_v0 m ρ c
  have v1 : V1 m ρ c main_v1 = shapeCast S32768x1 (m ((c : Thread nD τ).loc main_arg6)) shapeCasts_S8x4096_S32768x1 := W1_v1 m ρ c
  have v3 := W1_v3 m ρ c
  have v2 : V1 m ρ c main_arg2 = m ((c : Thread nD τ).loc main_arg2) := W1_arg2 m ρ c
  rw [W7_v24, W6_v23, e0, e22, e3, e4, e1, v0, v1, v2]
  rw [show V1 m ρ c main_v3 = _ from v3]
  exact chain_eq _ _ _ _ _ _ _ hE

end Cert.KernelIdeal.GcnVal

end
-- ==== Proof.RefValue.lean ====
/-
  The reference program's result is the layer's output in arrangement R, index by index, when every edge
  index lies in [0, 4096).

  The program, read one operation at a time: the projection lin; the source and target words of an edge; the
  three along-axis reads (a negative index wrapped by +4096, a gather with the index clamped, the gathered value
  kept where 0 ≤ index ≤ 4095 and a NaN put elsewhere) — under the range hypothesis the wrap is the identity and
  the value is kept; the edge message lin(source) * (mask(source) * mask(target)); the segment word target +
  batch * 4096; the accumulating scatter into zeros, whose row r is the sum of the messages of the edges whose
  segment word is r; the residual sum h2R; and the row normalisation, scale, shift, clamp and mask of rowOut.
-/
import proofs.«160068_j70334384439537_2_alg».proof.Proof.ReadQ
import proofs.«160068_j70334384439537_2_alg».proof.Proof.RefOps
import proofs.«160068_j70334384439537_2_alg».proof.Proof.Spec
import proofs.«160068_j70334384439537_2_alg».proof.Proof.LibGraphMean
import proofs.«160068_j70334384439537_2_alg».proof.Proof.LibTakeAlong
import Idealize.ShloMosaic.Lib.ValueIdx
import Idealize.ShloMosaic.Lib.Affine
import Idealize.ShloMosaic.PureOps.Ideal.Laws

noncomputable section

namespace Cert.Gcn.Ref

open Cert.ReferenceIdeal Cert.ReferenceIdeal.Gen Cert.ReferenceIdeal.ReadP Idealize.ShloMosaic Idealize.ShloMosaic.ValueIdx

/-! ## The layout operations' index maps at coordinates -/

theorem idx_lhs (b : Fin 8) (n : Fin 4096) (k i : Fin 256) : lidx_main_v0 (ix3 b n k) i = ix3 b n i := by
  funext a
  match a with
  | ⟨0, _⟩ => rfl
  | ⟨1, _⟩ => rfl
  | ⟨2, _⟩ => rfl

theorem idx_rhs (b : Fin 8) (n : Fin 4096) (k i : Fin 256) : ridx_main_v0 (ix3 b n k) i = ix2 k i := by
  funext a
  match a with
  | ⟨0, _⟩ => rfl
  | ⟨1, _⟩ => rfl

theorem idx_bias (b : Fin 8) (n : Fin 4096) (k : Fin 256) : idx_main_v1 (idx_main_v2 (ix3 b n k)) = ix1 k := by
  funext a
  match a with
  | ⟨0, _⟩ => rfl

theorem idx_src (b : Fin 8) (e : Fin 65536) : idx_main_v4 (idx_main_v5 (ix2 b e)) = ix3 b (0 : Fin 2) e := by
  have hb := b.isLt
  have he := e.isLt
  funext a
  refine Fin.ext ?_
  match a with
  | ⟨0, _⟩ => show (b.val * 65536 + e.val) / 65536 = b.val; omega
  | ⟨1, _⟩ => rfl
  | ⟨2, _⟩ => show (b.val * 65536 + e.val) % 65536 = e.val; omega

theorem idx_tgt (b : Fin 8) (e : Fin 65536) : idx_main_v6 (idx_main_v7 (ix2 b e)) = ix3 b (1 : Fin 2) e := by
  have hb := b.isLt
  have he := e.isLt
  funext a
  refine Fin.ext ?_
  match a with
  | ⟨0, _⟩ => show (b.val * 65536 + e.val) / 65536 = b.val; omega
  | ⟨1, _⟩ => rfl
  | ⟨2, _⟩ => show (b.val * 65536 + e.val) % 65536 = e.val; omega

theorem idx_col0 (b : Fin 8) (e : Fin 65536) : idx_main_call0_v5 (ix3 b e (0 : Fin 1)) = ix2 b e := by
  have hb := b.isLt
  have he := e.isLt
  funext a
  refine Fin.ext ?_
  match a with
  | ⟨0, _⟩ => show ((b.val * 65536 + e.val) * 1 + 0) / 65536 = b.val; omega
  | ⟨1, _⟩ => show ((b.val * 65536 + e.val) * 1 + 0) % 65536 = e.val; omega

theorem idx_col1 (b : Fin 8) (e : Fin 65536) : idx_main_call1_v5 (ix3 b e (0 : Fin 1)) = ix2 b e := by
  have hb := b.isLt
  have he := e.isLt
  funext a
  refine Fin.ext ?_
  match a with
  | ⟨0, _⟩ => show ((b.val * 65536 + e.val) * 1 + 0) / 65536 = b.val; omega
  | ⟨1, _⟩ => show ((b.val * 65536 + e.val) * 1 + 0) % 65536 = e.val; omega

theorem idx_col2 (b : Fin 8) (e : Fin 65536) : idx_main_v12 (ix3 b e (0 : Fin 1)) = ix2 b e := by
  funext a
  match a with
  | ⟨0, _⟩ => rfl
  | ⟨1, _⟩ => rfl

theorem idx_emask (b : Fin 8) (e : Fin 65536) (k : Fin 256) : idx_main_v14 (idx_main_v15 (ix3 b e k)) = ix2 b e := by
  funext a
  match a with
  | ⟨0, _⟩ => rfl
  | ⟨1, _⟩ => rfl

theorem idx_seg_col (e : Fin 524288) : idx_main_v26 (ix2 e (0 : Fin 1)) = ix1 e := by
  funext a
  match a with
  | ⟨0, _⟩ => rfl

theorem idx_seg_flat (e : Fin 524288) : idx_main_v23 (ix1 e) = ix2 (eB e) (eE e) := by
  funext a
  match a with
  | ⟨0, _⟩ => rfl
  | ⟨1, _⟩ => rfl

theorem idx_off (b : Fin 8) (e : Fin 65536) : idx_main_v18 (idx_main_v21 (ix2 b e)) = ix1 b := by
  funext a
  match a with
  | ⟨0, _⟩ => rfl

theorem idx_msg_flat (e : Fin 524288) (k : Fin 256) : idx_main_v24 (ix2 e k) = ix3 (eB e) (eE e) k := by
  have he := e.isLt
  have hk := k.isLt
  funext a
  refine Fin.ext ?_
  match a with
  | ⟨0, _⟩ => show (e.val * 256 + k.val) / 16777216 = e.val / 65536; omega
  | ⟨1, _⟩ => show (e.val * 256 + k.val) / 256 % 65536 = e.val % 65536; omega
  | ⟨2, _⟩ => show (e.val * 256 + k.val) % 256 = k.val; omega

theorem idx_agg (b : Fin 8) (n : Fin 4096) (k : Fin 256) : idx_main_v28 (ix3 b n k) = ix2 (row b n) k := by
  have hb := b.isLt
  have hn := n.isLt
  have hk := k.isLt
  funext a
  refine Fin.ext ?_
  match a with
  | ⟨0, _⟩ => show ((b.val * 4096 + n.val) * 256 + k.val) / 256 = b.val * 4096 + n.val; omega
  | ⟨1, _⟩ => show ((b.val * 4096 + n.val) * 256 + k.val) % 256 = k.val; omega

theorem idx_sum1 (b : Fin 8) (n : Fin 4096) (j : Fin 256) : idx_main_v33 (ix2 b n) j = ix3 b n j := by
  funext a
  match a with
  | ⟨0, _⟩ => rfl
  | ⟨1, _⟩ => rfl
  | ⟨2, _⟩ => rfl

theorem idx_sum2 (b : Fin 8) (n : Fin 4096) (j : Fin 256) : idx_main_v40 (ix2 b n) j = ix3 b n j := by
  funext a
  match a with
  | ⟨0, _⟩ => rfl
  | ⟨1, _⟩ => rfl
  | ⟨2, _⟩ => rfl

theorem idx_keep1 (b : Fin 8) (n : Fin 4096) : idx_main_v34 (ix3 b n (0 : Fin 1)) = ix2 b n := by
  funext a
  match a with
  | ⟨0, _⟩ => rfl
  | ⟨1, _⟩ => rfl

theorem idx_keep2 (b : Fin 8) (n : Fin 4096) : idx_main_v41 (ix3 b n (0 : Fin 1)) = ix2 b n := by
  funext a
  match a with
  | ⟨0, _⟩ => rfl
  | ⟨1, _⟩ => rfl

theorem idx_row37 (b : Fin 8) (n : Fin 4096) (k : Fin 256) : idx_main_v37 (ix3 b n k) = ix3 b n (0 : Fin 1) := by
  funext a
  match a with
  | ⟨0, _⟩ => rfl
  | ⟨1, _⟩ => rfl
  | ⟨2, _⟩ => rfl

theorem idx_row44 (b : Fin 8) (n : Fin 4096) (k : Fin 256) : idx_main_v44 (ix3 b n k) = ix3 b n (0 : Fin 1) := by
  funext a
  match a with
  | ⟨0, _⟩ => rfl
  | ⟨1, _⟩ => rfl
  | ⟨2, _⟩ => rfl

theorem idx_row49 (b : Fin 8) (n : Fin 4096) (k : Fin 256) : idx_main_v49 (ix3 b n k) = ix3 b n (0 : Fin 1) := by
  funext a
  match a with
  | ⟨0, _⟩ => rfl
  | ⟨1, _⟩ => rfl
  | ⟨2, _⟩ => rfl

theorem idx_gam (b : Fin 8) (n : Fin 4096) (k : Fin 256) : idx_main_v51 (idx_main_v52 (ix3 b n k)) = ix1 k := by
  funext a
  match a with
  | ⟨0, _⟩ => rfl

theorem idx_bet (b : Fin 8) (n : Fin 4096) (k : Fin 256) : idx_main_v54 (idx_main_v55 (ix3 b n k)) = ix1 k := by
  funext a
  match a with
  | ⟨0, _⟩ => rfl

theorem idx_mask (b : Fin 8) (n : Fin 4096) (k : Fin 256) : idx_main_v58 (idx_main_v59 (ix3 b n k)) = ix2 b n := by
  funext a
  match a with
  | ⟨0, _⟩ => rfl
  | ⟨1, _⟩ => rfl

/-! ## The program's gather and scatter records are the general ones -/

theorem maskDims_eq : gather_S8x4096_S8x65536x1_S8x65536_n_1_0_0_1_2_11
    = Cert.TakeAlong.rowsDims2 8 4096 65536 gather_S8x4096_S8x65536x1_S8x65536_n_1_0_0_1_2_11_wf := rfl

theorem featDims_eq : gather_S8x4096x256_S8x65536x1_S8x65536x256_2_1_0_0_1_2_11256
    = Cert.TakeAlong.rowsDims3 8 4096 65536 256 gather_S8x4096x256_S8x65536x1_S8x65536x256_2_1_0_0_1_2_11256_wf := rfl

theorem aggDims_eq : scatter_S32768x256_S524288x1_S524288x256_1_0_0_1
    = Cert.ScatterGather.rowsScatter 32768 524288 256 scatter_S32768x256_S524288x1_S524288x256_1_0_0_1_wf := rfl

section Arrays

variable (X : FVec Ideal S8x4096x256 .f32) (W : FVec Ideal S256x256 .f32) (bias gam bet : FVec Ideal S256 .f32)
  (E : IVec S8x2x65536 32) (Mk : IVec S8x4096 32)

/-! ## The projection -/

theorem lin_eq (b : Fin 8) (n : Fin 4096) (k : Fin 256) :
    val_main_v3 (F := Ideal) X W bias (ix3 b n k) = lin X W bias b n k := by
  rw [val_main_v3_apply, val_main_v0_apply, val_main_v2_apply, val_main_v1_apply, idx_bias, Ideal.addf_def]
  unfold lin
  exact congrArg₂ (· + ·) (Finset.sum_congr rfl fun i _ => by rw [idx_lhs, idx_rhs]) rfl

/-! ## The edges' words -/

theorem src_eq (b : Fin 8) (e : Fin 65536) : val_main_v5 (F := Ideal) E (ix2 b e) = E (ix3 b (0 : Fin 2) e) := by
  rw [val_main_v5_apply, val_main_v4_apply, idx_src]

theorem tgt_eq (b : Fin 8) (e : Fin 65536) : val_main_v7 (F := Ideal) E (ix2 b e) = E (ix3 b (1 : Fin 2) e) := by
  rw [val_main_v7_apply, val_main_v6_apply, idx_tgt]

theorem src_range (hE : InRange E) (j : S8x65536.Idx) :
    0 ≤ (val_main_v5 (F := Ideal) E j).toInt ∧ (val_main_v5 (F := Ideal) E j).toInt < 4096 := by
  rw [val_main_v5_apply, val_main_v4_apply]
  exact hE _

theorem tgt_range (hE : InRange E) (j : S8x65536.Idx) :
    0 ≤ (val_main_v7 (F := Ideal) E j).toInt ∧ (val_main_v7 (F := Ideal) E j).toInt < 4096 := by
  rw [val_main_v7_apply, val_main_v6_apply]
  exact hE _

/-! ## The first along-axis read: the mask at the source -/

theorem wrap0 (hE : InRange E) (j : S8x65536.Idx) :
    val_main_call0_v4 (F := Ideal) E j = val_main_v5 (F := Ideal) E j := by
  rw [val_main_call0_v4_apply, val_main_call0_v1_apply, val_main_call0_v0_apply, val_main_call0_c_apply,
    val_main_call0_v3_apply, val_main_call0_v2_apply, val_main_call0_c_0_apply]
  exact wrap_id _ (src_range E hE j).1

theorem col0 (hE : InRange E) (i : S8x65536x1.Idx) :
    val_main_call0_v5 (F := Ideal) E i = val_main_v5 (F := Ideal) E (idx_main_call0_v5 i) := by
  rw [val_main_call0_v5_apply, wrap0 E hE]

theorem inb0 (hE : InRange E) (i : S8x65536x1.Idx) : val_main_call0_v11 (F := Ideal) E i = 1#1 := by
  rw [val_main_call0_v11_apply, val_main_call0_v7_apply, val_main_call0_v10_apply, col0 E hE,
    val_main_call0_v6_apply, val_main_call0_c_2_apply, val_main_call0_v9_apply, val_main_call0_v8_apply,
    val_main_call0_c_1_apply]
  exact inb_one _ (src_range E hE _).1 (src_range E hE _).2

theorem keep0 (hE : InRange E) (j : S8x65536.Idx) : val_main_call0_v12 (F := Ideal) E j = 1#1 := by
  unfold val_main_call0_v12
  exact reduce_andi_one _ _ _ _ (inb0 E hE) (fun _ => rfl) j

theorem mask_src (hE : InRange E) (b : Fin 8) (e : Fin 65536) :
    val_main_v9 (F := Ideal) E Mk (ix2 b e) = nm Mk b (node (E (ix3 b (0 : Fin 2) e))) := by
  rw [val_main_v9_apply, keep0 E hE, select_one]
  unfold val_main_call0_v13
  rw [maskDims_eq, Cert.TakeAlong.gather2_apply (by decide : 0 < 4096), clamp_node, col0 E hE, idx_col0, src_eq,
    val_main_v8_apply, sitofp_eq]
  rfl

/-! ## The second along-axis read: the mask at the target -/

theorem wrap1 (hE : InRange E) (j : S8x65536.Idx) :
    val_main_call1_v4 (F := Ideal) E j = val_main_v7 (F := Ideal) E j := by
  rw [val_main_call1_v4_apply, val_main_call1_v1_apply, val_main_call1_v0_apply, val_main_call1_c_apply,
    val_main_call1_v3_apply, val_main_call1_v2_apply, val_main_call1_c_0_apply]
  exact wrap_id _ (tgt_range E hE j).1

theorem col1 (hE : InRange E) (i : S8x65536x1.Idx) :
    val_main_call1_v5 (F := Ideal) E i = val_main_v7 (F := Ideal) E (idx_main_call1_v5 i) := by
  rw [val_main_call1_v5_apply, wrap1 E hE]

theorem inb1 (hE : InRange E) (i : S8x65536x1.Idx) : val_main_call1_v11 (F := Ideal) E i = 1#1 := by
  rw [val_main_call1_v11_apply, val_main_call1_v7_apply, val_main_call1_v10_apply, col1 E hE,
    val_main_call1_v6_apply, val_main_call1_c_2_apply, val_main_call1_v9_apply, val_main_call1_v8_apply,
    val_main_call1_c_1_apply]
  exact inb_one _ (tgt_range E hE _).1 (tgt_range E hE _).2

theorem keep1 (hE : InRange E) (j : S8x65536.Idx) : val_main_call1_v12 (F := Ideal) E j = 1#1 := by
  unfold val_main_call1_v12
  exact reduce_andi_one _ _ _ _ (inb1 E hE) (fun _ => rfl) j

theorem mask_tgt (hE : InRange E) (b : Fin 8) (e : Fin 65536) :
    val_main_v10 (F := Ideal) E Mk (ix2 b e) = nm Mk b (node (E (ix3 b (1 : Fin 2) e))) := by
  rw [val_main_v10_apply, keep1 E hE, select_one]
  unfold val_main_call1_v13
  rw [maskDims_eq, Cert.TakeAlong.gather2_apply (by decide : 0 < 4096), clamp_node, col1 E hE, idx_col1, tgt_eq,
    val_main_v8_apply, sitofp_eq]
  rfl

/-! ## The third along-axis read: the projected features at the source -/

theorem col2_range (hE : InRange E) (i : S8x65536x1.Idx) :
    0 ≤ (val_main_v12 (F := Ideal) E i).toInt ∧ (val_main_v12 (F := Ideal) E i).toInt < 4096 := by
  rw [val_main_v12_apply]
  exact src_range E hE _

theorem wrap2 (hE : InRange E) (i : S8x65536x1.Idx) :
    val_main_call2_v4 (F := Ideal) E i = val_main_v12 (F := Ideal) E i := by
  rw [val_main_call2_v4_apply, val_main_call2_v1_apply, val_main_call2_v0_apply, val_main_call2_c_apply,
    val_main_call2_v3_apply, val_main_call2_v2_apply, val_main_call2_c_0_apply]
  exact wrap_id _ (col2_range E hE i).1

theorem inb2 (hE : InRange E) (i : S8x65536x1.Idx) : val_main_call2_v10 (F := Ideal) E i = 1#1 := by
  rw [val_main_call2_v10_apply, val_main_call2_v6_apply, val_main_call2_v9_apply, wrap2 E hE,
    val_main_call2_v5_apply, val_main_call2_c_2_apply, val_main_call2_v8_apply, val_main_call2_v7_apply,
    val_main_call2_c_1_apply]
  exact inb_one _ (col2_range E hE _).1 (col2_range E hE _).2

theorem keep2 (hE : InRange E) (i : S8x65536x256.Idx) : val_main_call2_v13 (F := Ideal) E i = 1#1 := by
  rw [val_main_call2_v13_apply]
  unfold val_main_call2_v11
  exact reduce_andi_one _ _ _ _ (inb2 E hE) (fun _ => rfl) _

theorem feat_src (hE : InRange E) (b : Fin 8) (e : Fin 65536) (k : Fin 256) :
    val_main_v13 (F := Ideal) X W bias E (ix3 b e k) = lin X W bias b (node (E (ix3 b (0 : Fin 2) e))) k := by
  rw [val_main_v13_apply, keep2 E hE, select_one]
  unfold val_main_call2_v12
  rw [featDims_eq, Cert.TakeAlong.gather3_apply (by decide : 0 < 4096), clamp_node, wrap2 E hE, val_main_v12_apply,
    idx_col2, src_eq, lin_eq]

/-! ## The edge messages -/

theorem msg_eq (hE : InRange E) (e : Fin 524288) (k : Fin 256) :
    val_main_v24 (F := Ideal) X W bias E Mk (ix2 e k) = msgR X W bias E Mk e k := by
  rw [val_main_v24_apply, idx_msg_flat, val_main_v16_apply, feat_src X W bias E hE, val_main_v15_apply,
    val_main_v14_apply, idx_emask, val_main_v11_apply, mask_src E Mk hE, mask_tgt E Mk hE]
  simp only [Ideal.mulf_def]
  unfold msgR srcN tgtN srcW tgtW
  rfl

/-! ## The segment words -/

theorem seg_eq (e : Fin 524288) : val_main_v26 (F := Ideal) E (ix2 e (0 : Fin 1)) = segW E e := by
  rw [val_main_v26_apply, idx_seg_col, val_main_v23_apply, idx_seg_flat, val_main_v22_apply, tgt_eq,
    val_main_v21_apply, val_main_v20_apply, val_main_v18_apply, idx_off, val_main_v17_apply, val_main_v19_apply,
    val_main_c_apply]
  rfl

theorem zeros_eq : val_main_v25 (F := Ideal) = fun _ => 0 := by
  funext i
  rw [val_main_v25_apply, val_main_cst_apply, Ideal.ofBits_def]
  exact Ideal.ofBits_zero_f32

/-! ## The scatter and the residual sum -/

theorem agg_eq (hE : InRange E) (r : Fin 32768) (k : Fin 256) :
    val_main_v27 (F := Ideal) X W bias E Mk (ix2 r k) = ∑ e ∈ lands E r, msgR X W bias E Mk e k := by
  unfold val_main_v27
  rw [host_rows_apply _ scatter_S32768x256_S524288x1_S524288x256_1_0_0_1_wf aggDims_eq _ zeros_eq]
  have hl : Cert.GraphMean.landing (val_main_v26 (F := Ideal) E) r = lands E r := by
    unfold Cert.GraphMean.landing lands
    exact Finset.filter_congr fun e _ => by rw [seg_eq]
  rw [hl]
  exact Finset.sum_congr rfl fun e _ => msg_eq X W bias E Mk hE e k

theorem h2_eq (hE : InRange E) (b : Fin 8) (n : Fin 4096) (k : Fin 256) :
    val_main_v32 (F := Ideal) X W bias E Mk (ix3 b n k) = h2R X W bias E Mk (row b n) k := by
  rw [val_main_v32_apply, lin_eq, val_main_v31_apply, val_main_v28_apply, idx_agg, agg_eq X W bias E Mk hE,
    val_main_v30_apply, val_main_v29_apply, val_main_cst_0_apply]
  simp only [Ideal.addf_def, Ideal.hostDivf_def, Ideal.hostUnary_sqrt_def, Ideal.ofBits_def]
  unfold h2R c4096
  rw [bOf_row, nOf_row]

/-! ## The row normalisation -/

theorem mean_eq (hE : InRange E) (b : Fin 8) (n : Fin 4096) :
    val_main_v36 (F := Ideal) X W bias E Mk (ix3 b n (0 : Fin 1)) = mean (fun j => h2R X W bias E Mk (row b n) j) := by
  rw [val_main_v36_apply, val_main_v34_apply, idx_keep1, val_main_v33_apply, val_main_cst_1_apply,
    val_main_v35_apply, val_main_cst_2_apply]
  simp only [Ideal.hostDivf_def, Ideal.ofBits_def]
  rw [Ideal.ofBits_zero_f32, zero_add]
  unfold mean c256
  exact congrArg₂ Ideal.div (Finset.sum_congr rfl fun j _ => by rw [idx_sum1, h2_eq X W bias E Mk hE]) rfl

theorem dev_eq (hE : InRange E) (b : Fin 8) (n : Fin 4096) (k : Fin 256) :
    val_main_v38 (F := Ideal) X W bias E Mk (ix3 b n k)
      = h2R X W bias E Mk (row b n) k - mean (fun j => h2R X W bias E Mk (row b n) j) := by
  rw [val_main_v38_apply, h2_eq X W bias E Mk hE, val_main_v37_apply, idx_row37, mean_eq X W bias E Mk hE,
    Ideal.subf_def]

theorem var_eq (hE : InRange E) (b : Fin 8) (n : Fin 4096) :
    val_main_v43 (F := Ideal) X W bias E Mk (ix3 b n (0 : Fin 1)) = var (fun j => h2R X W bias E Mk (row b n) j) := by
  rw [val_main_v43_apply, val_main_v41_apply, idx_keep2, val_main_v40_apply, val_main_cst_3_apply,
    val_main_v42_apply, val_main_cst_4_apply]
  simp only [Ideal.hostDivf_def, Ideal.ofBits_def]
  rw [Ideal.ofBits_zero_f32, zero_add]
  unfold var c256
  exact congrArg₂ Ideal.div (Finset.sum_congr rfl fun j _ => by
    rw [idx_sum2, val_main_v39_apply, dev_eq X W bias E Mk hE, Ideal.mulf_def]) rfl

/-! ## The result -/

theorem out_eq (hE : InRange E) (b : Fin 8) (n : Fin 4096) (k : Fin 256) :
    val_main_v60 (F := Ideal) X W bias gam bet E Mk (ix3 b n k)
      = rowOut (fun j => h2R X W bias E Mk (row b n) j) (fun j => gam (ix1 j)) (fun j => bet (ix1 j)) (nm Mk b n) k := by
  rw [val_main_v60_apply, val_main_v57_apply, val_main_v56_apply, val_main_v53_apply, val_main_v50_apply,
    val_main_v45_apply, h2_eq X W bias E Mk hE, val_main_v44_apply, idx_row44, mean_eq X W bias E Mk hE,
    val_main_v49_apply, idx_row49, val_main_v48_apply, val_main_v47_apply, var_eq X W bias E Mk hE,
    val_main_v46_apply, val_main_cst_5_apply, val_main_v52_apply, val_main_v51_apply, idx_gam,
    val_main_v55_apply, val_main_v54_apply, idx_bet, val_main_call3_v0_apply, val_main_call3_cst_apply,
    val_main_v59_apply, val_main_v58_apply, idx_mask, val_main_v8_apply, sitofp_eq]
  simp only [Ideal.mulf_def, Ideal.maximumf_def, Ideal.addf_def, Ideal.subf_def, Ideal.hostUnary_rsqrt_def,
    Ideal.ofBits_def]
  rw [Ideal.ofBits_zero_f32]
  unfold rowOut nm ceps
  rfl

/-- THE REFERENCE'S RESULT: when every edge index lies in [0, 4096), the reference program's result array is the
    layer's output in arrangement R. -/
theorem result_eq (hE : InRange E) :
    val_main_v60 (F := Ideal) X W bias gam bet E Mk = GR X W bias gam bet E Mk := by
  funext i
  obtain ⟨b, n, k, rfl⟩ : ∃ (b : Fin 8) (n : Fin 4096) (k : Fin 256), i = ix3 b n k := ⟨i 0, i 1, i 2, eq_ix3 i⟩
  exact out_eq X W bias gam bet E Mk hE b n k

end Arrays

end Cert.Gcn.Ref

end
-- ==== Proof.Law.lean ====
/-
  The two arrangements of the layer agree: h2K = h2R.

  With every edge index in [0, 4096) the segment word of an edge is (its batch) * 4096 + (its target), with no
  wrap in 32 bits, so an edge lands on the row of its own target and the mask of its target IS the mask of the
  row. With X, W and bias real every message is a real, so the row's mask — one real factor shared by every
  edge of the sum — leaves the finite sum. Last, 4096 = 64^2, so dividing by sqrt 4096 is multiplying by
  1/64 = 2^-6.
-/
import proofs.«160068_j70334384439537_2_alg».proof.Proof.Spec

noncomputable section

namespace Cert.Gcn

open Idealize.ShloMosaic Idealize.ShloMosaic.ValueIdx

/-! ## The two evaluated literals -/

theorem c4096_eq : c4096 = ((4096 : ℝ) : EReal) := by
  unfold c4096
  simp [Ideal.ofBits, Ideal.ieee, -EReal.coe_mul]; norm_num

theorem c64inv_eq : c64inv = ((1 / 64 : ℝ) : EReal) := by
  unfold c64inv
  simp [Ideal.ofBits, Ideal.ieee, -EReal.coe_mul]; norm_num

/-- Dividing by sqrt 4096 is multiplying by 2^-6. -/
theorem div_sqrt4096 (x : EReal) : Ideal.div x (Ideal.sqrt c4096) = x * c64inv := by
  have h64 : Real.sqrt 4096 = 64 := by
    rw [show (4096 : ℝ) = 64 ^ 2 by norm_num]
    exact Real.sqrt_sq (by norm_num)
  rw [c4096_eq, Ideal.sqrt_coe, if_neg (by norm_num), h64, Ideal.div_coe (by norm_num : (64 : ℝ) ≠ 0), c64inv_eq]

/-! ## Finite sums of reals inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor leaves a finite sum of reals. -/
theorem sum_mul_real {ι : Type} (s : Finset ι) (f : ι → EReal) (g : ι → ℝ) (hf : ∀ i ∈ s, f i = (g i : EReal)) (c : ℝ) :
    (∑ i ∈ s, f i) * (c : EReal) = ∑ i ∈ s, f i * (c : EReal) := by
  have h1 : ∑ i ∈ s, f i = ((∑ i ∈ s, g i : ℝ) : EReal) := by
    rw [coe_sum]; exact Finset.sum_congr rfl hf
  have h2 : ∑ i ∈ s, f i * (c : EReal) = ((∑ i ∈ s, g i * c : ℝ) : EReal) := by
    rw [coe_sum]; exact Finset.sum_congr rfl fun i hi => by rw [hf i hi, EReal.coe_mul]
  rw [h1, h2, ← EReal.coe_mul, Finset.sum_mul]

section Arrays

variable (X : (⟨3, ![8, 4096, 256]⟩ : Shape).Idx → EReal) (W : (⟨2, ![256, 256]⟩ : Shape).Idx → EReal)
  (bias : (⟨1, ![256]⟩ : Shape).Idx → EReal)
  (E : (⟨3, ![8, 2, 65536]⟩ : Shape).Idx → BitVec 32) (Mk : (⟨2, ![8, 4096]⟩ : Shape).Idx → BitVec 32)

/-- The projection of real arrays is real. -/
theorem lin_real (hR : RealIn X W bias) (b : Fin 8) (n : Fin 4096) (k : Fin 256) :
    ∃ x : ℝ, lin X W bias b n k = (x : EReal) := by
  obtain ⟨hX, hW, hb⟩ := hR
  choose xr hxr using hX
  choose wr hwr using hW
  choose br hbr using hb
  refine ⟨(∑ i : Fin 256, xr (ix3 b n i) * wr (ix2 k i)) + br (ix1 k), ?_⟩
  unfold lin
  rw [EReal.coe_add, coe_sum, hbr]
  congr 1
  exact Finset.sum_congr rfl fun i _ => by rw [hxr, hwr, EReal.coe_mul]

theorem msgK_real (hR : RealIn X W bias) (e : Fin 524288) (k : Fin 256) :
    ∃ x : ℝ, msgK X W bias E Mk e k = (x : EReal) := by
  obtain ⟨x, hx⟩ := lin_real X W bias hR (eB e) (srcN E e) k
  exact ⟨x * (((Mk (ix2 (eB e) (srcN E e))).toInt : ℝ)), by unfold msgK nm; rw [hx, EReal.coe_mul]⟩

/-! ## Where an edge lands -/

/-- In range, a node word names the node of its own value. -/
theorem node_val {w : BitVec 32} (h0 : 0 ≤ w.toInt) (h1 : w.toInt < 4096) : ((node w).val : Int) = w.toInt := by
  unfold node
  show ((min w.toInt.toNat 4095 : Nat) : Int) = w.toInt
  omega

/-- In range, the segment word of an edge, read signed, is its batch times 4096 plus its target. -/
theorem segW_toInt (hE : InRange E) (e : Fin 524288) :
    (segW E e).toInt = ((eB e).val : Int) * 4096 + ((tgtN E e).val : Int) := by
  have h := hE (ix3 (eB e) (1 : Fin 2) (eE e))
  have hb : (eB e).val < 8 := (eB e).isLt
  have hn := node_val h.1 h.2
  show (E (ix3 (eB e) (1 : Fin 2) (eE e)) + BitVec.ofNat 32 (eB e).val * 4096#32).toInt
    = ((eB e).val : Int) * 4096 + ((node (E (ix3 (eB e) (1 : Fin 2) (eE e)))).val : Int)
  generalize E (ix3 (eB e) (1 : Fin 2) (eE e)) = w at h hn ⊢
  generalize (eB e).val = b at hb ⊢
  rw [hn]
  have hw : w.toInt = (w.toNat : Int) := by
    rw [BitVec.toInt_eq_toNat_cond]
    split
    · rfl
    · rename_i hlt
      rw [BitVec.toInt_eq_toNat_cond, if_neg hlt] at h
      omega
  have hwn : w.toNat < 4096 := by omega
  have hs : (w + BitVec.ofNat 32 b * 4096#32).toNat = w.toNat + b * 4096 := by
    rw [BitVec.toNat_add, BitVec.toNat_mul, BitVec.toNat_ofNat]
    show (w.toNat + b % 2 ^ 32 * 4096 % 2 ^ 32) % 2 ^ 32 = _
    omega
  rw [BitVec.toInt_eq_toNat_cond, hs, if_pos (by omega), hw]
  push_cast
  ring

/-- An edge that lands on row r belongs to r's batch and targets r's node. -/
theorem lands_row (hE : InRange E) (r : Fin 32768) (e : Fin 524288) (he : e ∈ lands E r) :
    eB e = bOf r ∧ tgtN E e = nOf r := by
  have h : (segW E e).toInt = (r.val : Int) := (Finset.mem_filter.mp he).2
  rw [segW_toInt E hE e] at h
  have hn : (tgtN E e).val < 4096 := (tgtN E e).isLt
  have hb : (eB e).val < 8 := (eB e).isLt
  constructor
  · apply Fin.ext; show (eB e).val = r.val / 4096; omega
  · apply Fin.ext; show (tgtN E e).val = r.val % 4096; omega

/-! ## The law -/

theorem h2K_eq_h2R (hE : InRange E) (hR : RealIn X W bias) (r : Fin 32768) (k : Fin 256) :
    h2K X W bias E Mk r k = h2R X W bias E Mk r k := by
  unfold h2K h2R
  rw [div_sqrt4096]
  refine congrArg (fun z => lin X W bias (bOf r) (nOf r) k + z * c64inv) ?_
  choose g hg using fun e => msgK_real X W bias E Mk hR e k
  have hnm : nm Mk (bOf r) (nOf r) = ((((Mk (ix2 (bOf r) (nOf r))).toInt : ℝ)) : EReal) := rfl
  rw [hnm, sum_mul_real (lands E r) _ g (fun e _ => hg e)]
  refine Finset.sum_congr rfl fun e he => ?_
  obtain ⟨hb, hn⟩ := lands_row E hE r e he
  unfold msgR msgK
  rw [← mul_assoc, hn, hb]
  rfl

end Arrays

end Cert.Gcn

end
-- ==== Proof.RefLink.lean ====
/-
  The reference program's result, and the two arrangements joined.

  The reference's run ends with its result buffer at the composed term of its 134 operations; that term is the
  last stage of the operation-by-operation reading, which is arrangement R of the layer when the edge indices
  are in range. Arrangement K equals arrangement R, row by row, when moreover the features, the weights and the
  bias are real (the law h2K = h2R under the rows' normalisation).
-/
import proofs.«160068_j70334384439537_2_alg».proof.Proof.RunP
import proofs.«160068_j70334384439537_2_alg».proof.Proof.RefValue
import proofs.«160068_j70334384439537_2_alg».proof.Proof.Law

noncomputable section

namespace Cert.Gcn.Ref

open Cert.ReferenceIdeal Idealize.ShloMosaic Idealize.ShloMosaic.TcCoe Idealize.SL.Sem

variable {F : FTy → Type} [FloatOps F]

/-- The term the run names is the last stage of the reading. -/
theorem res_eq (m : (ℓ : Loc nD τ sig) → Buf (Elt F) ℓ) (c : Dev nD) :
    Cert.ReferenceIdeal.ValueP.res_main_v60 m c = Cert.ReferenceIdeal.ReadP.val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v60; rfl

end Cert.Gcn.Ref

namespace Cert.Gcn

open Idealize.ShloMosaic Idealize.ShloMosaic.ValueIdx

/-- Arrangement K is arrangement R: the rows entering the normalisation agree. -/
theorem GK_eq_GR (X : (⟨3, ![8, 4096, 256]⟩ : Shape).Idx → EReal) (W : (⟨2, ![256, 256]⟩ : Shape).Idx → EReal)
    (bias gam bet : (⟨1, ![256]⟩ : Shape).Idx → EReal)
    (E : (⟨3, ![8, 2, 65536]⟩ : Shape).Idx → BitVec 32) (Mk : (⟨2, ![8, 4096]⟩ : Shape).Idx → BitVec 32)
    (hE : InRange E) (hR : RealIn X W bias) : GK X W bias gam bet E Mk = GR X W bias gam bet E Mk := by
  funext i
  unfold GK GR
  exact congrArg (fun f => rowOut f (fun k => gam (ix1 k)) (fun k => bet (ix1 k)) (nm Mk (i 0) (i 1)) (i 2))
    (funext fun k => h2K_eq_h2R X W bias E Mk hE hR (row (i 0) (i 1)) k)

end Cert.Gcn

end
-- ==== Proof.PreDecode.lean ====
/-
  What the precondition says of the argument arrays.

  The precondition is one bit: the conjunction of "every entry of |a| is below +infinity" for the five float
  arrays and of "every entry of the edge array is at least 0 and below 4096", each an all-reduction by "and".
  The bit being 1 gives every conjunct at every index. An extended real whose absolute value max(x, -x) is
  below +infinity is neither infinity: it is a real. A 32-bit word that passes the two signed comparisons has
  its signed value in [0, 4096).
-/
import proofs.«160068_j70334384439537_2_alg».proof.Pre_finite_inputs
import proofs.«160068_j70334384439537_2_alg».proof.Proof.Spec
import Idealize.ShloMosaic.Lib.ReduceAll
import Idealize.ShloMosaic.Lib.Affine
import Idealize.ShloMosaic.PureOps.Ideal.Laws

noncomputable section

namespace Cert.Gcn.Pre

open Idealize.ShloMosaic Idealize.ShloMosaic.ValueIdx Cert.Pre_finite_inputs

variable [Cert.Pre_finite_inputs.Facts]

instance : Subsingleton S_.Idx := ⟨fun a b => funext fun d => d.elim0⟩

/-- The f32 word of +infinity. -/
theorem top_word : Ideal.ofBits .f32 0x7F800000#32 = ⊤ := by simp [Ideal.ofBits, Ideal.ieee]

/-- |x| < +infinity leaves a real. -/
theorem real_of_abs_lt (x : EReal) (h : Ideal.cmp .olt (max x (-x)) (Ideal.ofBits .f32 0x7F800000#32) = 1#1) :
    ∃ r : ℝ, x = (r : EReal) := by
  rw [top_word] at h
  have h2 : BitVec.ofBool (decide (max x (-x) < ⊤)) = 1#1 := h
  have h3 : max x (-x) < ⊤ := by
    by_contra hc
    rw [decide_eq_false hc] at h2
    exact absurd h2 (by decide)
  induction x using EReal.rec with
  | bot => simp at h3
  | coe r => exact ⟨r, rfl⟩
  | top => simp at h3

section Decode

variable (a0 : FVec Ideal S8x4096x256 .f32) (a1 : FVec Ideal S256x256 .f32) (a2 a3 a4 : FVec Ideal S256 .f32)
  (a5 : IVec S8x2x65536 32) (a6 : IVec S8x4096 32)

/-- THE PRECONDITION DECODED: the features, the weights and the bias are real, and every edge index is in [0, 4096). -/
theorem decode (h : fn (F := Ideal) a0 a1 a2 a3 a4 a5 a6 = fun _ => 1#1) :
    Cert.Gcn.RealIn a0 a1 a2 ∧ Cert.Gcn.InRange a5 := by
  have e := congrFun h ix0
  dsimp only [fn, fn_part1] at e
  simp only [andi, IntOp.andi_eq_one] at e
  obtain ⟨⟨⟨⟨⟨h0, h1⟩, h2⟩, -⟩, -⟩, h5⟩ := e
  refine ⟨⟨fun i => ?_, fun i => ?_, fun i => ?_⟩, fun i => ?_⟩
  · exact real_of_abs_lt _ (Host.reduce_andi_all _ _ _ _ ix0 h0 i)
  · exact real_of_abs_lt _ (Host.reduce_andi_all _ _ _ _ ix0 h1 i)
  · exact real_of_abs_lt _ (Host.reduce_andi_all _ _ _ _ ix0 h2 i)
  · have hi := Host.reduce_andi_all _ _ _ _ ix0 h5 i
    simp only [andi, IntOp.andi_eq_one] at hi
    obtain ⟨hge, hlt⟩ := hi
    have hge' : IntOp.cmpi .sge (a5 i) 0#32 = 1#1 := hge
    have hlt' : IntOp.cmpi .slt (a5 i) 4096#32 = 1#1 := hlt
    rw [IntOp.cmpi_sge] at hge'
    rw [IntOp.cmpi_slt] at hlt'
    exact ⟨hge', hlt'⟩

end Decode

end Cert.Gcn.Pre

end
-- ==== Proof.lean ====
/-
  The certificate: a graph-convolution layer (linear projection, masked aggregation along the edges, residual,
  layer normalisation, ReLU, node mask) computed by two pipelined kernels with a gather and a segment sum
  between them, against the same layer written with array operations.

  At the exact reading both programs compute, at node (b, n) and column k, the normalised row of
      lin b n k + (Σ over the edges landing on the node of  lin(source) * mask(source) * mask(target)) / 64:
  the kernel program masks the sources before the gather and multiplies the row's sum by the row's own mask and
  by 2^-6; the reference masks every edge by both of its ends and divides by sqrt 4096. An edge lands on the row
  of its own target when the edge indices lie in [0, 4096), which the precondition states beside the finiteness
  of the float arguments; the features, the weights and the bias being real, the common real factor leaves the
  finite sum (Proof/Law.lean). The kernel program's result is read off its run boundary by boundary
  (Proof/KRun.lean, KChain.lean, K0.lean, K1.lean, HostMid.lean, KFinal.lean), the reference's off its run stage
  by stage (Proof/RunP.lean, ReadQ.lean, RefValue.lean, RefLink.lean). The idealization rewrote nothing, so
  what it preserves is trivial; the three frames are the generated ones.
-/
import proofs.«160068_j70334384439537_2_alg».proof.Defs
import proofs.«160068_j70334384439537_2_alg».proof.Proof.Gen.Kernel
import proofs.«160068_j70334384439537_2_alg».proof.Proof.Gen.Kernel.Frame
import proofs.«160068_j70334384439537_2_alg».proof.Proof.Gen.KernelIdeal
import proofs.«160068_j70334384439537_2_alg».proof.Proof.Gen.KernelIdeal.Frame
import proofs.«160068_j70334384439537_2_alg».proof.Proof.Gen.ReferenceIdeal
import proofs.«160068_j70334384439537_2_alg».proof.Proof.Gen.Pre_finite_inputs
import proofs.«160068_j70334384439537_2_alg».proof.Proof.KRun
import proofs.«160068_j70334384439537_2_alg».proof.Proof.KFinal
import proofs.«160068_j70334384439537_2_alg».proof.Proof.RefLink
import proofs.«160068_j70334384439537_2_alg».proof.Proof.PreDecode
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the layer's output in arrangement K of the kernel program's arguments. -/
theorem algebraic : Cert.algebraic_KernelIdeal_ReferenceIdeal := by
  intro m ρ m' ρ' hpre hagree
  refine ⟨fun c => Cert.Gcn.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.GcnVal.W7_result m ρ c (Cert.Gcn.Pre.decode _ _ _ _ _ _ _ (hpre c)).2), (h c).2⟩)
      (Cert.KernelIdeal.GcnRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨hR, hE⟩ := Cert.Gcn.Pre.decode _ _ _ _ _ _ _ (hpre c)
    obtain ⟨a0, a1, a2, a3, a4, a5, a6⟩ := hagree c
    rw [Cert.Gcn.Ref.res_eq, a0, a1, a2, a3, a4, a5, a6, Cert.Gcn.Ref.result_eq _ _ _ _ _ _ _ hE]
    exact (Cert.Gcn.GK_eq_GR _ _ _ _ _ _ _ hE hR).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
